-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S1024x256 : Shape := ⟨2, ![1024, 256]⟩
abbrev S256 : Shape := ⟨1, ![256]⟩
abbrev S2048x256 : Shape := ⟨2, ![2048, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_arg4 : FVec F S256 .f32) (main_arg5 : FVec F S256 .f32) (main_arg6 : FVec F S2048x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S2048x256 .f32 := Host.absf main_arg6
  let main_cst_10 : FVec F S_ .f32 := constant S_ .f32 0x7F800000#32
  let main_v30 : FVec F S2048x256 .f32 := broadcastInDim S2048x256 ![] bcast_S_S2048x256 main_cst_10
  let main_v31 : IVec S2048x256 1 := cmpf .olt main_v29 main_v30
  let main_c_11 : IVec S_ 1 := constantI S_ 1 1#1
  let main_v32 : IVec S_ 1 := (fun x v => Host.reduce IntOp.andi x v reducesTo_S2048x256_S_d0_1 h_S_) main_v31 main_c_11
  let main_v33 : IVec S_ 1 := andi main_v28 main_v32
  main_v33

def fn {F : FTy → Type} [FloatOps F] (main_arg0 : FVec F S8192x1024 .f32) (main_arg1 : FVec F S8192x2048 .f32) (main_arg2 : FVec F S1024x256 .f32) (main_arg3 : FVec F S256 .f32) (main_arg4 : FVec F S256 .f32) (main_arg5 : FVec F S256 .f32) (main_arg6 : FVec F S2048x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S8192x1024 : Shape := ⟨2, ![8192, 1024]⟩
abbrev S8192x2048 : Shape := ⟨2, ![8192, 2048]⟩
abbrev S1024x256 : Shape := ⟨2, ![1024, 256]⟩
abbrev S256 : Shape := ⟨1, ![256]⟩
abbrev S2048x256 : Shape := ⟨2, ![2048, 256]⟩
abbrev S1x256 : Shape := ⟨2, ![1, 256]⟩
abbrev S8192x256 : Shape := ⟨2, ![8192, 256]⟩
abbrev S1024x1024 : Shape := ⟨2, ![1024, 1024]⟩
abbrev S_ : Shape := ⟨0, ![]⟩
abbrev S2048 : Shape := ⟨1, ![2048]⟩
abbrev S1x2048 : Shape := ⟨2, ![1, 2048]⟩
abbrev S256x2048 : Shape := ⟨2, ![256, 2048]⟩
abbrev S256x256 : Shape := ⟨2, ![256, 256]⟩
abbrev S256x1 : Shape := ⟨2, ![256, 1]⟩

abbrev nBuf : Space → Nat
  | .hbm => 54
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1024x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S2048x256, .f32⟩
  | .hbm, ⟨7, _⟩ => ⟨S1x256, .f32⟩
  | .hbm, ⟨8, _⟩ => ⟨S8192x256, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S_, .i32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S_, .f32⟩
  | .hbm, ⟨19, _⟩ => ⟨S1x256, .f32⟩
  | .hbm, ⟨20, _⟩ => ⟨S1x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S2048x256, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x256, .bf16⟩
  | .hbm, ⟨50, _⟩ => ⟨S256x2048, .f32⟩
  | .hbm, ⟨51, _⟩ => ⟨S256x2048, .bf16⟩
  | .hbm, ⟨52, _⟩ => ⟨S8192x2048, .f32⟩
  | .hbm, ⟨53, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | .local _ .vmem, ⟨6, _⟩ => ⟨S256x256, .f32⟩
  | .local _ .vmem, ⟨7, _⟩ => ⟨S256x256, .f32⟩
  | .local _ .vmem, ⟨8, _⟩ => ⟨S256x2048, .f32⟩
  | .local _ .vmem, ⟨9, _⟩ => ⟨S256x2048, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x2048, .f32⟩
  | .local _ .vmem, ⟨15, _⟩ => ⟨S2048x256, .bf16⟩
  | .local _ .vmem, ⟨16, _⟩ => ⟨S256x2048, .bf16⟩
  | .local _ .vmem, ⟨17, _⟩ => ⟨S256x2048, .f32⟩
  | .local _ .vmem, ⟨18, _⟩ => ⟨S256x2048, .f32⟩
  | .local _ .vmem, ⟨19, _⟩ => ⟨S256x256, .f32⟩
  | .local _ .vmem, ⟨20, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_cst_3 : Ref sig .tc := ⟨.hbm, 31, rfl⟩
abbrev main_call0_v12 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v5 : Ref sig .tc := ⟨.hbm, 36, rfl⟩
abbrev main_cst_1 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_2 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19_0 : Ref sig .tc := ⟨.hbm, 52, rfl⟩
abbrev main_v19_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S256_S1x256 : S256.ShapeCasts S1x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reducesTo_S8192x256_S256_d0 : S8192x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S8192x256_0_1 : S1x256.BroadcastsInDim S8192x256 (![0, 1] : Fin 2 → Fin S8192x256.rank)
  reducesTo_S2048x256_S2048_d1 : S2048x256.ReducesTo [1] S2048
  shapeCasts_S2048_S1x2048 : S2048.ShapeCasts S1x2048
  transposes_S2048x256_S256x2048_1_0 : S2048x256.Transposes [1, 0] S256x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S256x256 : S1x256.Broadcasts S256x256
  reduces_S256x256_S256 : S256x256.Reduces [1] S256
  shapeCasts_S256_S256x1 : S256.ShapeCasts S256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  dot_S1024x1024_S1024x256_S1024x256_1_0_0_1_n_n_wf : DotDims.WF S1024x1024 S1024x256 S1024x256 [1] [0] [0] [1] [] []
  dot_S256x256_S256x2048_S256x2048_1_0_0_1_n_n_wf : DotDims.WF S256x256 S256x2048 S256x2048 [1] [0] [0] [1] [] []
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S8192x256.size a
  hwx1_0 : ∀ i : grid1.Coords, EltTy.bits .f32 = 32 ∨ (Rect.block (s := S8192x256) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x2048.size a
  hwx1_1 : ∀ i : grid1.Coords, EltTy.bits .f32 = 32 ∨ (Rect.block (s := S8192x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x256.size a ≤ S2048x256.size a
  hwx1_7 : ∀ i : grid1.Coords, EltTy.bits .bf16 = 32 ∨ (Rect.block (s := S2048x256) S2048x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x2048.size a ≤ S256x2048.size a
  hwx1_8 : ∀ i : grid1.Coords, EltTy.bits .bf16 = 32 ∨ (Rect.block (s := S256x2048) S256x2048.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x2048.size a ≤ S8192x2048.size a
  hwx1_9 : ∀ i : grid1.Coords, EltTy.bits .f32 = 32 ∨ (Rect.block (s := S8192x2048) S256x2048.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x256.size a ≤ S8192x256.size a
  hwx1_10 : ∀ i : grid1.Coords, EltTy.bits .f32 = 32 ∨ (Rect.block (s := S8192x256) S256x256.size (cc1_transform_10 i) (hinb1_10 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S2048x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S256x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19_0) S256x2048.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v19_1) S256x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S1024x256 : Shape := ⟨2, ![1024, 256]⟩
abbrev S256 : Shape := ⟨1, ![256]⟩
abbrev S2048x256 : Shape := ⟨2, ![2048, 256]⟩
abbrev S8192x256 : Shape := ⟨2, ![8192, 256]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S2048 : Shape := ⟨1, ![2048]⟩
abbrev S256x2048 : Shape := ⟨2, ![256, 2048]⟩
abbrev S1x2048 : Shape := ⟨2, ![1, 2048]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1024x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S2048x256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .i32⟩
  | .hbm, ⟨17, _⟩ => ⟨S_, .f32⟩
  | .hbm, ⟨18, _⟩ => ⟨S256, .f32⟩
  | .hbm, ⟨19, _⟩ => ⟨S1x256, .f32⟩
  | .hbm, ⟨20, _⟩ => ⟨S_, .f32⟩
  | .hbm, ⟨21, _⟩ => ⟨S1x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S1x256, .f32⟩
  | .hbm, ⟨47, _⟩ => ⟨S8192x256, .f32⟩
  | .hbm, ⟨48, _⟩ => ⟨S8192x256, .f32⟩
  | .hbm, ⟨49, _⟩ => ⟨S1x256, .f32⟩
  | .hbm, ⟨50, _⟩ => ⟨S8192x256, .f32⟩
  | .hbm, ⟨51, _⟩ => ⟨S8192x256, .f32⟩
  | .hbm, ⟨52, _⟩ => ⟨S1x256, .f32⟩
  | .hbm, ⟨53, _⟩ => ⟨S8192x256, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S2048x256, .f32⟩
  | .hbm, ⟨60, _⟩ => ⟨S_, .f32⟩
  | .hbm, ⟨61, _⟩ => ⟨S2048, .f32⟩
  | .hbm, ⟨62, _⟩ => ⟨S256x2048, .f32⟩
  | .hbm, ⟨63, _⟩ => ⟨S8192x2048, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S1x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192x1, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S8192x2048, .f32⟩
  | .hbm, ⟨100, _⟩ => ⟨S8192x2048, .f32⟩
  | .hbm, ⟨101, _⟩ => ⟨S8192x256, .f32⟩
  | .hbm, ⟨102, _⟩ => ⟨S_, .f32⟩
  | .hbm, ⟨103, _⟩ => ⟨S8192, .f32⟩
  | .hbm, ⟨104, _⟩ => ⟨S_, .f32⟩
  | .hbm, ⟨105, _⟩ => ⟨S8192, .f32⟩
  | .hbm, ⟨106, _⟩ => ⟨S8192, .f32⟩
  | .hbm, ⟨107, _⟩ => ⟨S8192x1, .f32⟩
  | .hbm, ⟨108, _⟩ => ⟨S8192x2048, .f32⟩
  | .hbm, ⟨109, _⟩ => ⟨S8192x2048, .f32⟩
  | .hbm, ⟨110, _⟩ => ⟨S8192x2048, .f32⟩
  | .hbm, ⟨111, _⟩ => ⟨S_, .f32⟩
  | .hbm, ⟨112, _⟩ => ⟨S8192, .f32⟩
  | .hbm, ⟨113, _⟩ => ⟨S8192x1, .f32⟩
  | .hbm, ⟨114, _⟩ => ⟨S8192x2048, .f32⟩
  | .hbm, ⟨115, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_cst_3 : Ref sig .tc := ⟨.hbm, 33, rfl⟩
abbrev main_call0_v12 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_2 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_3 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_5 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_6 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_7 : Ref sig .tc := ⟨.hbm, 84, rfl⟩
abbrev main_v47 : Ref sig .tc := ⟨.hbm, 85, rfl⟩
abbrev main_v48 : Ref sig .tc := ⟨.hbm, 86, rfl⟩
abbrev main_cst_8 : Ref sig .tc := ⟨.hbm, 87, rfl⟩
abbrev main_v49 : Ref sig .tc := ⟨.hbm, 88, rfl⟩
abbrev main_cst_9 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_10 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_11 : Ref sig .tc := ⟨.hbm, 102, rfl⟩
abbrev main_v61 : Ref sig .tc := ⟨.hbm, 103, rfl⟩
abbrev main_cst_12 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_13 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S256_d0 : S8192x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  reducesTo_S8192x256_S8192_d1 : S8192x256.ReducesTo [1] S8192
  bcast_S8192_S8192x1_0 : S8192.BroadcastsInDim S8192x1 (![0] : Fin 1 → Fin S8192x1.rank)
  reducesTo_S2048x256_S2048_d1 : S2048x256.ReducesTo [1] S2048
  transposes_S2048x256_S256x2048_1_0 : S2048x256.Transposes [1, 0] S256x2048
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  bcast_S_S8192 : S_.BroadcastsInDim S8192 (![] : Fin 0 → Fin S8192.rank)
  dot_S8192x1024_S1024x256_S8192x256_1_0_0_1_n_n_wf : DotDims.WF S8192x1024 S1024x256 S8192x256 [1] [0] [0] [1] [] []
  dot_S8192x256_S256x2048_S8192x2048_1_0_0_1_n_n_wf : DotDims.WF S8192x256 S256x2048 S8192x2048 [1] [0] [0] [1] [] []
  dot_S8192x2048_S2048x256_S8192x256_1_0_0_1_n_n_wf : DotDims.WF S8192x2048 S2048x256 S8192x256 [1] [0] [0] [1] [] []

variable [Facts₀]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S256x2048_S8192x2048_1_0_0_1_n_n : DotDims S8192x256 S256x2048 S8192x2048 where
  lhsContracting := [1]
  rhsContracting := [0]
  lhsNonContracting := [0]
  rhsNonContracting := [1]
  lhsBatch := []
  rhsBatch := []
  wf := dot_S8192x256_S256x2048_S8192x2048_1_0_0_1_n_n_wf
def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf

class Facts : Prop extends Facts₀ where

variable [Facts]
-- ==== Proof.KRun.lean ====
/-
  The idealized kernel's run with its two result arrays named. The program is a chain of six segments — a reshape of the
  bias, the affine-layer region, three stretches of host operations (the column statistics, the code norms, the
  transposed code book), the quantisation region — and at the last boundary every buffer holds what the fold of the
  segments from the launch memory leaves there. So each result array ends at the second region's exit contents of its
  buffer, and each argument array as launched.
-/
import proofs.«145537_j65034394796697_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two results end at the last boundary's contents of their
    buffers and the seven arguments as launched. -/
theorem run_values : θ_run defs (onTc (τ := τ) (main (F := F))) ⟨m, fun _ => 0, ρ⟩ (fun r => ∀ c : Dev nD,
      r.2.mem ((c.tc : Thread nD τ).loc main_v19_0) = W6 m ρ c (Proc.devRef .tc main_v19_0)
      ∧ r.2.mem ((c.tc : Thread nD τ).loc main_v19_1) = W6 m ρ c (Proc.devRef .tc main_v19_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v19_0 (by decide)),
       h c _ (mem_uc main_v19_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.KRun

end
-- ==== Proof.RefFns.lean ====
/-
  The reference computation as pure functions of whole arrays, stage by stage, in the order the host program applies
  them: the affine layer h = x·W + b; the batch statistics of h over its 8192 rows (the mean, the biased variance, the
  reciprocal standard deviation rsqrt(var + ε)); the normalised activations hn = (h − μ)·σ⁻¹·γ + β; the squared norms
  of the code vectors; the negative squared distances −(‖hn‖² − 2·hn·Eᵀ + ‖e‖²); the Gumbel perturbation
  −log(−log(u + c) + c); the row softmax exp(y − max y) / Σ exp(y − max y); and the product of the soft assignments
  with the code book. Each function is the composition of the host operations of its stage and nothing else, so the
  host program's result buffers are these functions of its arguments by unfolding.
-/
import proofs.«145537_j65034394796697_1_alg».proof.ReferenceIdeal
import proofs.«145537_j65034394796697_1_alg».proof.Proof.Gen.ReferenceIdeal

noncomputable section

namespace Cert.ReferenceIdeal.RefFns

open Cert.ReferenceIdeal Cert.ReferenceIdeal.Gen Idealize.ShloMosaic Idealize.ShloMosaic.TcCoe

variable {F : FTy → Type} [FloatOps F]

/-- A vector over the 256 features laid along every one of the 8192 rows. -/
def rows256 (v : FVec F S256 .f32) : FVec F S8192x256 .f32 :=
  broadcastInDim S8192x256 ![0, 1] bcast_S1x256_S8192x256_0_1 (broadcastInDim S1x256 ![1] bcast_S256_S1x256_1 v)

/-- A vector over the 8192 rows laid along every one of the 2048 columns. -/
def cols8192 (v : FVec F S8192 .f32) : FVec F S8192x2048 .f32 :=
  broadcastInDim S8192x2048 ![0, 1] bcast_S8192x1_S8192x2048_0_1 (broadcastInDim S8192x1 ![0] bcast_S8192_S8192x1_0 v)

/-- A vector over the 2048 codes laid along every one of the 8192 rows. -/
def rows2048 (v : FVec F S2048 .f32) : FVec F S8192x2048 .f32 :=
  broadcastInDim S8192x2048 ![0, 1] bcast_S1x2048_S8192x2048_0_1 (broadcastInDim S1x2048 ![1] bcast_S2048_S1x2048_1 v)

/-- One scalar word at every entry of an [8192, 2048] array. -/
def splat (w : BitVec 32) : FVec F S8192x2048 .f32 :=
  broadcastInDim S8192x2048 ![] bcast_S_S8192x2048 (constant S_ .f32 w)

/-- The affine layer: x·W + b, b along every row. -/
def linOf (x : FVec F S8192x1024 .f32) (W : FVec F S1024x256 .f32) (b : FVec F S256 .f32) : FVec F S8192x256 .f32 :=
  addf (Host.dotGeneral dot_S8192x1024_S1024x256_S8192x256_1_0_0_1_n_n none x W) (rows256 b)

/-- The column means of h: the column sums divided by 8192. -/
def meanOf (h : FVec F S8192x256 .f32) : FVec F S256 .f32 :=
  Host.divf (Host.reduceAdd h (constant S_ .f32 0x00000000#32) reducesTo_S8192x256_S256_d0 h_S_)
    (broadcastInDim S256 ![] bcast_S_S256 (constant S_ .f32 0x46000000#32))

/-- The number of rows less the zero degrees of freedom, as the variance computes it. -/
def countOf : FVec F S_ .f32 :=
  subf (constant S_ .f32 0x46000000#32) (sitofp .f32 (constantI S_ 32 0#32))

/-- The deviations of h from its column means (the means recomputed as the variance computes them). -/
def devOf (h : FVec F S8192x256 .f32) : FVec F S8192x256 .f32 :=
  subf h (broadcastInDim S8192x256 ![0, 1] bcast_S1x256_S8192x256_0_1
    (Host.divf (broadcastInDim S1x256 ![1] bcast_S256_S1x256_1
        (Host.reduceAdd h (constant S_ .f32 0x00000000#32) reducesTo_S8192x256_S256_d0 h_S_))
      (broadcastInDim S1x256 ![] bcast_S_S1x256 (constant S_ .f32 0x46000000#32))))

/-- The biased column variances of h: the column sums of the squared deviations divided by the count, where the count
    is positive. -/
def varOf (h : FVec F S8192x256 .f32) : FVec F S256 .f32 :=
  select (broadcastInDim S256 ![] bcast_S_S256 (cmpf .ogt (countOf (F := F)) (constant S_ .f32 0x00000000#32)))
    (Host.divf (Host.reduceAdd (mulf (devOf h) (devOf h)) (constant S_ .f32 0x00000000#32) reducesTo_S8192x256_S256_d0 h_S_)
      (broadcastInDim S256 ![] bcast_S_S256 (countOf (F := F))))
    (broadcastInDim S256 ![] bcast_S_S256 (id (constant S_ .f32 0x7FC00000#32)))

/-- The reciprocal standard deviations: rsqrt(var + ε). -/
def istdOf (h : FVec F S8192x256 .f32) : FVec F S256 .f32 :=
  Host.rsqrt (addf (varOf h) (broadcastInDim S256 ![] bcast_S_S256 (constant S_ .f32 0x3727C5AC#32)))

/-- The normalised activations: ((h − μ)·σ⁻¹)·γ + β, each vector along every row. -/
def normOf (h : FVec F S8192x256 .f32) (mu istd gamma beta : FVec F S256 .f32) : FVec F S8192x256 .f32 :=
  addf (mulf (mulf (subf h (rows256 mu)) (rows256 istd)) (rows256 gamma)) (rows256 beta)

/-- The squared norm of every code vector. -/
def codeNormsOf (E : FVec F S2048x256 .f32) : FVec F S2048 .f32 :=
  Host.reduceAdd (mulf E E) (constant S_ .f32 0x00000000#32) reducesTo_S2048x256_S2048_d1 h_S_

/-- The negative squared distances from every normalised row to every code vector, in the expanded form
    −((‖hn‖² − 2·hn·Eᵀ) + ‖e‖²). -/
def logitsOf (hn : FVec F S8192x256 .f32) (E : FVec F S2048x256 .f32) : FVec F S8192x2048 .f32 :=
  Host.negf (addf
    (subf (cols8192 (Host.reduceAdd (mulf hn hn) (constant S_ .f32 0x00000000#32) reducesTo_S8192x256_S8192_d1 h_S_))
      (mulf (splat 0x40000000#32)
        (Host.dotGeneral dot_S8192x256_S256x2048_S8192x2048_1_0_0_1_n_n none hn
          (transpose S256x2048 [1, 0] E transposes_S2048x256_S256x2048_1_0))))
    (rows2048 (codeNormsOf E)))

/-- The Gumbel perturbation −log(−log(u + c) + c). -/
def gumbelOf (u : FVec F S8192x2048 .f32) : FVec F S8192x2048 .f32 :=
  Host.negf (Host.log (addf (Host.negf (Host.log (addf u (splat 0x2EDBE6FF#32)))) (splat 0x2EDBE6FF#32)))

/-- The perturbed logits over the temperature 1. -/
def perturbedOf (l : FVec F S8192x2048 .f32) (u : FVec F S8192x2048 .f32) : FVec F S8192x2048 .f32 :=
  Host.divf (addf l (gumbelOf u)) (splat 0x3F800000#32)

/-- The row maxima, as the host takes them: −∞ against the fold of max from −∞ along each row. -/
def rowMaxOf (y : FVec F S8192x2048 .f32) : FVec F S8192 .f32 :=
  maximumf (broadcastInDim S8192 ![] bcast_S_S8192 (constant S_ .f32 0xFF800000#32))
    (Host.reduce FloatOps.maximumf y (constant S_ .f32 0xFF800000#32) reducesTo_S8192x2048_S8192_d1 h_S_)

/-- The shifted exponentials exp(y − max y), row by row. -/
def expShiftOf (y : FVec F S8192x2048 .f32) : FVec F S8192x2048 .f32 :=
  Host.exp (subf y (cols8192 (rowMaxOf y)))

/-- The row softmax: the shifted exponentials over their row sums. -/
def softmaxOf (y : FVec F S8192x2048 .f32) : FVec F S8192x2048 .f32 :=
  Host.divf (expShiftOf y)
    (cols8192 (Host.reduceAdd (expShiftOf y) (constant S_ .f32 0x00000000#32) reducesTo_S8192x2048_S8192_d1 h_S_))

/-- The soft assignments times the code book. -/
def mixOf (a : FVec F S8192x2048 .f32) (E : FVec F S2048x256 .f32) : FVec F S8192x256 .f32 :=
  Host.dotGeneral dot_S8192x2048_S2048x256_S8192x256_1_0_0_1_n_n none a E

/-- The normalised activations of the whole program, from the affine layer's output. -/
def normedOf (h : FVec F S8192x256 .f32) (gamma beta : FVec F S256 .f32) : FVec F S8192x256 .f32 :=
  normOf h (meanOf h) (istdOf h) gamma beta

/-- The first result: the softmax of the negative squared distances. -/
def probsOf (h : FVec F S8192x256 .f32) (gamma beta : FVec F S256 .f32) (E : FVec F S2048x256 .f32) : FVec F S8192x2048 .f32 :=
  softmaxOf (logitsOf (normedOf h gamma beta) E)

/-- The second result: the softmax of the perturbed distances, times the code book. -/
def mixedOf (h : FVec F S8192x256 .f32) (u : FVec F S8192x2048 .f32) (gamma beta : FVec F S256 .f32) (E : FVec F S2048x256 .f32) :
    FVec F S8192x256 .f32 :=
  mixOf (softmaxOf (perturbedOf (logitsOf (normedOf h gamma beta) E) u)) E

end Cert.ReferenceIdeal.RefFns

end
-- ==== Proof.KHost.lean ====
/-
  What the two regions find in their input arrays. The affine-layer region reads x and W as launched and the bias as a
  row [1, 256]. The quantisation region reads the affine layer's output array h as the first region left it, the
  uniform samples as launched, and six small arrays the host computes in between: the column means of h and the
  reciprocal standard deviations rsqrt(var h + ε), the scale and the shift, each as a row [1, 256]; the squared norms
  of the code vectors as a row [1, 2048]; the code book and its transpose. The statistics are the same host
  operations the reference applies to its own h, so they are stated with the reference's functions of h.
-/
import proofs.«145537_j65034394796697_1_alg».proof.Proof.Gen.KernelIdeal.Frame
import proofs.«145537_j65034394796697_1_alg».proof.Proof.RefFns
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Cert.ReferenceIdeal.RefFns (meanOf istdOf codeNormsOf)

variable {F : FTy → Type} [FloatOps F]
variable (m : (ℓ : Loc nD τ sig) → Buf (Elt F) ℓ) (ρ : Dev nD → PrngReg)

/-! ## The affine-layer region's inputs -/

/-- x as launched. -/
theorem V1_x (c : Dev nD) : V1 m ρ c main_arg0 = m ((c : Thread nD τ).loc main_arg0) := by
  show after hostOps0 (W0 m ρ c) (Proc.devRef .tc main_arg0) = _
  after_results

/-- W as launched. -/
theorem V1_w (c : Dev nD) : V1 m ρ c main_arg2 = m ((c : Thread nD τ).loc main_arg2) := by
  show after hostOps0 (W0 m ρ c) (Proc.devRef .tc main_arg2) = _
  after_results

/-- The bias as a row. -/
theorem V1_b (c : Dev nD) : V1 m ρ c main_v0 = shapeCast S1x256 (m ((c : Thread nD τ).loc main_arg3)) shapeCasts_S256_S1x256 := by
  show after hostOps0 (W0 m ρ c) (Proc.devRef .tc main_v0) = _
  after_results
  rfl

/-! ## The quantisation region's inputs -/

/-- The affine layer's output array: what the first region's write-backs leave. -/
theorem V2_h (c : Dev nD) : V2 m ρ c main_v1 = (dat0 (V1 m ρ) c).arrAt 3 cfg0.N := W2_arr m ρ c 3

/-- h reaches the second region as the first region left it. -/
theorem V5_h (c : Dev nD) : V5 m ρ c main_v1 = V2 m ρ c main_v1 := by
  show after hostOps1_2 (after hostOps1_1 (after hostOps1 (W2 m ρ c))) (Proc.devRef .tc main_v1) = _
  after_results

/-- Argument 1 reaches the second region as launched: no host operation and neither region writes it. -/
theorem V5_arg1 (c : Dev nD) : V5 m ρ c main_arg1 = m ((c : Thread nD τ).loc main_arg1) := by
  show after hostOps1_2 (after hostOps1_1 (after hostOps1 (W2 m ρ c))) (Proc.devRef .tc main_arg1) = _
  after_results
  rw [W2_of_ne m ρ c main_arg1 (by decide)]
  show after hostOps0 (W0 m ρ c) (Proc.devRef .tc main_arg1) = _
  after_results

/-- The column means of h, as a row. -/
theorem V5_mu (c : Dev nD) : V5 m ρ c main_v9 = shapeCast S1x256 (meanOf (V2 m ρ c main_v1)) shapeCasts_S256_S1x256 := by
  show after hostOps1_2 (after hostOps1_1 (after hostOps1 (W2 m ρ c))) (Proc.devRef .tc main_v9) = _
  after_results
  rfl

set_option maxHeartbeats 4000000 in
/-- The reciprocal standard deviations of h's columns, as a row. -/
theorem V5_istd (c : Dev nD) : V5 m ρ c main_v10 = shapeCast S1x256 (istdOf (V2 m ρ c main_v1)) shapeCasts_S256_S1x256 := by
  show after hostOps1_2 (after hostOps1_1 (after hostOps1 (W2 m ρ c))) (Proc.devRef .tc main_v10) = _
  after_results
  rfl

/-- Argument 4 reaches the second region as launched: no host operation and neither region writes it. -/
theorem V5_arg4 (c : Dev nD) : V5 m ρ c main_arg4 = m ((c : Thread nD τ).loc main_arg4) := by
  show after hostOps1_2 (after hostOps1_1 (after hostOps1 (W2 m ρ c))) (Proc.devRef .tc main_arg4) = _
  after_results
  rw [W2_of_ne m ρ c main_arg4 (by decide)]
  show after hostOps0 (W0 m ρ c) (Proc.devRef .tc main_arg4) = _
  after_results

/-- Argument 5 reaches the second region as launched: no host operation and neither region writes it. -/
theorem V5_arg5 (c : Dev nD) : V5 m ρ c main_arg5 = m ((c : Thread nD τ).loc main_arg5) := by
  show after hostOps1_2 (after hostOps1_1 (after hostOps1 (W2 m ρ c))) (Proc.devRef .tc main_arg5) = _
  after_results
  rw [W2_of_ne m ρ c main_arg5 (by decide)]
  show after hostOps0 (W0 m ρ c) (Proc.devRef .tc main_arg5) = _
  after_results

/-- Argument 6 reaches the second region as launched: no host operation and neither region writes it. -/
theorem V5_arg6 (c : Dev nD) : V5 m ρ c main_arg6 = m ((c : Thread nD τ).loc main_arg6) := by
  show after hostOps1_2 (after hostOps1_1 (after hostOps1 (W2 m ρ c))) (Proc.devRef .tc main_arg6) = _
  after_results
  rw [W2_of_ne m ρ c main_arg6 (by decide)]
  show after hostOps0 (W0 m ρ c) (Proc.devRef .tc main_arg6) = _
  after_results

/-- Argument 4 is untouched by the first region and by the reshape before it. -/
theorem W2_arg4 (c : Dev nD) : W2 m ρ c (Proc.devRef .tc main_arg4) = m ((c : Thread nD τ).loc main_arg4) := by
  rw [W2_of_ne m ρ c main_arg4 (by decide)]
  show after hostOps0 (W0 m ρ c) (Proc.devRef .tc main_arg4) = _
  after_results

/-- Argument 5 is untouched by the first region and by the reshape before it. -/
theorem W2_arg5 (c : Dev nD) : W2 m ρ c (Proc.devRef .tc main_arg5) = m ((c : Thread nD τ).loc main_arg5) := by
  rw [W2_of_ne m ρ c main_arg5 (by decide)]
  show after hostOps0 (W0 m ρ c) (Proc.devRef .tc main_arg5) = _
  after_results

/-- Argument 6 is untouched by the first region and by the reshape before it. -/
theorem W2_arg6 (c : Dev nD) : W2 m ρ c (Proc.devRef .tc main_arg6) = m ((c : Thread nD τ).loc main_arg6) := by
  rw [W2_of_ne m ρ c main_arg6 (by decide)]
  show after hostOps0 (W0 m ρ c) (Proc.devRef .tc main_arg6) = _
  after_results

/-- The scale as a row. -/
theorem V5_gamma (c : Dev nD) : V5 m ρ c main_v11 = shapeCast S1x256 (m ((c : Thread nD τ).loc main_arg4)) shapeCasts_S256_S1x256 := by
  show after hostOps1_2 (after hostOps1_1 (after hostOps1 (W2 m ρ c))) (Proc.devRef .tc main_v11) = _
  after_results
  rw [W2_arg4]
  rfl

/-- The shift as a row. -/
theorem V5_beta (c : Dev nD) : V5 m ρ c main_v12 = shapeCast S1x256 (m ((c : Thread nD τ).loc main_arg5)) shapeCasts_S256_S1x256 := by
  show after hostOps1_2 (after hostOps1_1 (after hostOps1 (W2 m ρ c))) (Proc.devRef .tc main_v12) = _
  after_results
  rw [W2_arg5]
  rfl

/-- The squared norms of the code vectors, as a row. -/
theorem V5_e2 (c : Dev nD) : V5 m ρ c main_v15
    = shapeCast S1x2048 (codeNormsOf (m ((c : Thread nD τ).loc main_arg6))) shapeCasts_S2048_S1x2048 := by
  show after hostOps1_2 (after hostOps1_1 (after hostOps1 (W2 m ρ c))) (Proc.devRef .tc main_v15) = _
  after_results
  rw [W2_arg6]
  rfl

/-- The code book, rounded to bf16. -/
theorem V5_E (c : Dev nD) : V5 m ρ c main_v16 = truncf .bf16 (m ((c : Thread nD τ).loc main_arg6)) bitsLt_bf16_f32 := by
  show after hostOps1_2 (after hostOps1_1 (after hostOps1 (W2 m ρ c))) (Proc.devRef .tc main_v16) = _
  after_results
  rw [W2_arg6]

/-- The transposed code book, rounded to bf16. -/
theorem V5_ET (c : Dev nD) : V5 m ρ c main_v18
    = truncf .bf16 (transpose S256x2048 [1, 0] (m ((c : Thread nD τ).loc main_arg6)) transposes_S2048x256_S256x2048_1_0) bitsLt_bf16_f32 := by
  show after hostOps1_2 (after hostOps1_1 (after hostOps1 (W2 m ρ c))) (Proc.devRef .tc main_v18) = _
  after_results
  rw [W2_arg6]

end Cert.KernelIdeal.KHost

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.LibGcnLayout.lean ====
/-
  Layout operations of ranks one and two read at an index, for any extents: a column [a, 1] read as a vector [a] and a
  row [1, b] as a vector [b]; a vector [b] made a row [1, b]; a column [a, 1] and a row [1, b] spread over [a, b]; a
  contiguous piece of a vector. Each result element is one operand element, named by its coordinates.
-/
import Idealize.ShloMosaic.Lib.Pipeline.Value
import Idealize.ShloMosaic.Lib.ValueIdx

noncomputable section

namespace GcnLayout

open Idealize.ShloMosaic Idealize.ShloMosaic.ValueIdx

variable {α : Type}

/-- A column [a, 1] read as a vector: entry p is entry (p, 0). -/
theorem col_cast_apply {a : Nat} (h : (⟨2, ![a, 1]⟩ : Shape).ShapeCasts ⟨1, ![a]⟩)
    (v : (⟨2, ![a, 1]⟩ : Shape).Idx → α) (p : Fin a) :
    shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A row [1, b] read as a vector: entry q is entry (0, q). -/
theorem row_uncast_apply {b : Nat} (h : (⟨2, ![1, b]⟩ : Shape).ShapeCasts ⟨1, ![b]⟩)
    (v : (⟨2, ![1, b]⟩ : Shape).Idx → α) (q : Fin b) :
    shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show 0 * b + q.val = q.val
  omega

/-- A vector [b] made a row [1, b]: entry (0, q) is entry q. -/
theorem row_bcast_apply {b : Nat} (h : (⟨1, ![b]⟩ : Shape).BroadcastsInDim ⟨2, ![1, b]⟩ (![1] : Fin 1 → Fin 2))
    (v : (⟨1, ![b]⟩ : Shape).Idx → α) (z : Fin 1) (q : Fin b) :
    broadcastInDim ⟨2, ![1, b]⟩ ![1] h v (ix2 z q) = v (ix1 q) :=
  broadcastInDim_apply _ h v (ix2 z q) (ix1 q) (fun ax => match ax with
    | ⟨0, _⟩ => by
      show q.val = if b = 1 then 0 else q.val
      split
      · have := q.isLt; omega
      · rfl)

/-- A column [a, 1] spread over [a, b]: entry (p, q) is entry (p, 0). -/
theorem col_spread_apply {a b : Nat}
    (h : (⟨2, ![a, 1]⟩ : Shape).BroadcastsInDim ⟨2, ![a, b]⟩ (![0, 1] : Fin 2 → Fin 2))
    (v : (⟨2, ![a, 1]⟩ : Shape).Idx → α) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else q.val
      rfl)

/-- A row [1, b] spread over [a, b]: entry (p, q) is entry (0, q). -/
theorem row_spread_apply {a b : Nat}
    (h : (⟨2, ![1, b]⟩ : Shape).BroadcastsInDim ⟨2, ![a, b]⟩ (![0, 1] : Fin 2 → Fin 2))
    (v : (⟨2, ![1, b]⟩ : Shape).Idx → α) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun ax => match ax with
    | ⟨0, _⟩ => by
      show (0 : Nat) = if (1 : Nat) = 1 then 0 else p.val
      rfl
    | ⟨1, _⟩ => by
      show q.val = if b = 1 then 0 else q.val
      split
      · have := q.isLt; omega
      · rfl)

/-- A contiguous piece of a vector: entry q of the piece starting at `off` is entry `off + q`. -/
theorem piece_apply {n m off : Nat} (h : (⟨1, ![n]⟩ : Shape).Slices ![off] ⟨1, ![m]⟩)
    (v : (⟨1, ![n]⟩ : Shape).Idx → α) (q : Fin m) (hq : off + q.val < n) :
    extractStridedSlice ⟨1, ![m]⟩ ![off] v h (ix1 q) = v (ix1 ⟨off + q.val, hq⟩) :=
  extractStridedSlice_apply ![off] v h (ix1 q) (ix1 ⟨off + q.val, hq⟩) (fun a => match a with
    | ⟨0, _⟩ => rfl)

end GcnLayout

end
-- ==== Proof.KRead0.lean ====
/-
  The affine-layer kernel's block at an entry. The body rounds its x block and W to bf16 (no change on the extended
  reals), multiplies them into a zero accumulator and adds the bias row along every row: entry (p, q) of the block it
  stores is Σ_c x(p, c)·W(c, q) + b(0, q).
-/
import proofs.«145537_j65034394796697_1_alg».proof.Proof.Gen.KernelIdeal.Skeleton
import proofs.«145537_j65034394796697_1_alg».proof.Proof.LibRowOps
import proofs.«145537_j65034394796697_1_alg».proof.Proof.LibGcnLayout
import Idealize.ShloMosaic.Lib.Pipeline.Value
import Idealize.ShloMosaic.Lib.ValueIdx
import Idealize.ShloMosaic.PureOps.Ideal.Laws

noncomputable section

open scoped BigOperators

namespace Cert.KernelIdeal.KRead

open Cert.KernelIdeal Cert.KernelIdeal.Gen
open Idealize.ShloMosaic Idealize.ShloMosaic.TcCoe Idealize.ShloMosaic.ValueIdx

/-- A row [1, b] laid along every row of [a, b] by a kernel's broadcast: entry (p, q) is entry (0, q). -/
theorem row_to_apply {α : Type} {a b : Nat} (h : (⟨2, ![1, b]⟩ : Shape).Broadcasts ⟨2, ![a, b]⟩)
    (v : (⟨2, ![1, b]⟩ : Shape).Idx → α) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The stored block of the affine layer at entry (p, q). -/
theorem lin_pay (v0 : Vec Ideal S1024x1024 .f32) (v2 : Vec Ideal S1024x256 .f32) (v5 : Vec Ideal S1x256 .f32)
    (p : Fin 1024) (q : Fin 256) :
    k0_pay1 v0 v2 v5 (ix2 p q) = (∑ c : Fin 1024, v0 (ix2 p c) * v2 (ix2 c q)) + v5 (ix2 (0 : Fin 1) q) := by
  have e : k0_pay1 v0 v2 v5
      = addf (F := Ideal) (matmul (F := Ideal) dot_S1024x1024_S1024x256_S1024x256_1_0_0_1_n_n none
            (truncf (F := Ideal) .bf16 v0 bitsLt_bf16_f32) (truncf (F := Ideal) .bf16 v2 bitsLt_bf16_f32)
            (constant (F := Ideal) S1024x256 .f32 0x00000000#32))
          (broadcastTo S1024x256 (shapeCast S1x256 v5 shapeCasts_S1x256_S1x256) broadcasts_S1x256_S1024x256) := rfl
  rw [e, addf_apply, RowOps.matmul_apply dot_S1024x1024_S1024x256_S1024x256_1_0_0_1_n_n rfl none _ _ p q, shapeCast_self,
    row_to_apply]
  rfl

end Cert.KernelIdeal.KRead

end
-- ==== Proof.RowSpec.lean ====
/-
  One row of the computation, on the extended reals. For a row h of 256 activations, column statistics μ and σ⁻¹, scale
  γ and shift β: the normalised row ((h − μ)·σ⁻¹)·γ + β. For a normalised row hn, a code book E of 2048 vectors and their
  squared norms e: the negative squared distance to code k in the expanded form −((Σ hn² − 2·Σ hn·E_k) + e_k). The
  Gumbel perturbation of a uniform sample u, −log(−log(u + c) + c). The softmax of a row y of 2048 numbers,
  exp(y_k − M) / Σ exp(y_k' − M) with M the fold of max over the row from −∞. And the mixture Σ_k a_k·E_k of the code
  vectors under weights a. The three literals (2, the small constant c, −∞) are kept as their words: the same word
  stands on both sides of every equation they occur in.
-/
import Idealize.ShloMosaic.PureOps.Ideal

noncomputable section

open scoped BigOperators

namespace VqRow

open Idealize.ShloMosaic

/-- The word of 2.0. -/
def two : EReal := Ideal.ofBits .f32 0x40000000#32
/-- The word of the small constant added inside both logarithms. -/
def tiny : EReal := Ideal.ofBits .f32 0x2EDBE6FF#32
/-- The word of −∞. -/
def negInf : EReal := Ideal.ofBits .f32 0xFF800000#32

/-- The normalised row. -/
def norm (h mu s g b : Fin 256 → EReal) (j : Fin 256) : EReal := (h j - mu j) * s j * g j + b j

/-- The negative squared distance from a row to code k, expanded. -/
def logit (hn : Fin 256 → EReal) (E : Fin 2048 → Fin 256 → EReal) (e : Fin 2048 → EReal) (k : Fin 2048) : EReal :=
  -(((∑ j, hn j * hn j) - two * ∑ j, hn j * E k j) + e k)

/-- The outer half of the Gumbel perturbation, of w = u + c. -/
def gumbelOuter (w : EReal) : EReal := -Ideal.log (-Ideal.log w + tiny)

/-- The Gumbel perturbation of a sample u. -/
def gumbel (u : EReal) : EReal := gumbelOuter (u + tiny)

/-- The row maximum: the fold of max from −∞. -/
def rowMax (y : Fin 2048 → EReal) : EReal := (Finset.univ : Finset (Fin 2048)).fold max negInf y

/-- The softmax of a row at k. -/
def softmax (y : Fin 2048 → EReal) (k : Fin 2048) : EReal :=
  Ideal.div (Ideal.exp (y k - rowMax y)) (∑ k', Ideal.exp (y k' - rowMax y))

/-- The mixture of the code vectors under weights a, at feature j. -/
def mix (a : Fin 2048 → EReal) (E : Fin 2048 → Fin 256 → EReal) (j : Fin 256) : EReal := ∑ k, a k * E k j

end VqRow

end
-- ==== Proof.LibIdealReal.lean ====
/-
  The exact float operations on finite values.

  At the exact reading a float is an extended real and every operation is the textbook one. When the operands
  are (coercions of) real numbers, and the operation is not at a corner (no division by zero), the result is
  the coercion of the real result:
      x + y, x - y, x * y, max x y, exp x, x / y (y ≠ 0), a finite sum, a finite maximum (from a real start, or
      from -∞ over a nonempty family),
  each stated for the extended-real operator and for the float operation of the same name (kernel's and host's).
  Also the values a few 32-bit words denote: 0, 1, 1024, 1/32, -∞, and one large negative finite number; and
  √1024 = 32, so that  1 / √1024  and the word for  1/32  are the same number.
-/
import Idealize.ShloMosaic.PureOps.Ideal
import Idealize.ShloMosaic.PureOps.Ideal.Laws

noncomputable section

namespace Cert.IdealReal

open scoped BigOperators
open Idealize.ShloMosaic

variable {φ : FTy}

/-! ### The extended-real operators on coerced reals -/

theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem mul_coe (x y : ℝ) : (x : EReal) * (y : EReal) = ((x * y : ℝ) : EReal) := (EReal.coe_mul x y).symm
theorem neg_coe (x : ℝ) : -(x : EReal) = ((-x : ℝ) : EReal) := (EReal.coe_neg x).symm

/-- The coercion is monotone, so it commutes with `max`. -/
@[simp, norm_cast] theorem coe_max (x y : ℝ) : ((max x y : ℝ) : EReal) = max (x : EReal) (y : EReal) :=
  EReal.coe_strictMono.monotone.map_max
theorem max_coe (x y : ℝ) : max (x : EReal) (y : EReal) = ((max x y : ℝ) : EReal) := (coe_max x y).symm
theorem max_coe_zero (x : ℝ) : max (x : EReal) 0 = ((max x 0 : ℝ) : EReal) := by
  rw [← EReal.coe_zero, max_coe]

theorem exp_coe (x : ℝ) : Ideal.exp (x : EReal) = ((Real.exp x : ℝ) : EReal) := rfl
theorem exp_sub_coe (x y : ℝ) : Ideal.exp ((x : EReal) - (y : EReal)) = ((Real.exp (x - y) : ℝ) : EReal) := rfl

/-- Division of reals by a nonzero real. -/
theorem div_coe {y : ℝ} (hy : y ≠ 0) (x : ℝ) : Ideal.div (x : EReal) (y : EReal) = ((x / y : ℝ) : EReal) := by
  rw [Ideal.div_coe hy, ← EReal.coe_mul, mul_one_div]

/-- `√1024 = 32`. -/
theorem sqrt_1024 : Ideal.sqrt ((1024 : ℝ) : EReal) = ((32 : ℝ) : EReal) := by
  have h : Real.sqrt 1024 = 32 := by
    rw [show (1024 : ℝ) = 32 ^ 2 by norm_num, Real.sqrt_sq (by norm_num)]
  rw [Ideal.sqrt_coe, if_neg (by norm_num), h]

/-! ### Finite sums and maxima -/

/-- A finite sum of coerced reals is the coerced sum. -/
@[simp, norm_cast] theorem coe_finset_sum {α : Type*} (s : Finset α) (f : α → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

theorem sum_coe {α : Type*} (s : Finset α) (f : α → ℝ) :
    ∑ i ∈ s, (f i : EReal) = ((∑ i ∈ s, f i : ℝ) : EReal) := (coe_finset_sum s f).symm

/-- The same when each summand is only known to be a coerced real. -/
theorem sum_eq_coe {α : Type*} (s : Finset α) (g : α → EReal) (f : α → ℝ) (hg : ∀ i ∈ s, g i = (f i : EReal)) :
    ∑ i ∈ s, g i = ((∑ i ∈ s, f i : ℝ) : EReal) := by
  rw [Finset.sum_congr rfl hg, sum_coe]

/-- A fold of `max` from a real start over coerced reals is the coerced fold. -/
theorem fold_max_coe {α : Type*} (s : Finset α) (a : ℝ) (f : α → ℝ) :
    s.fold max (a : EReal) (fun i => (f i : EReal)) = ((s.fold max a f : ℝ) : EReal) := by
  induction s using Finset.cons_induction with
  | empty => simp
  | cons b s hb ih => rw [Finset.fold_cons, Finset.fold_cons, ih, max_coe]

/-- A fold of `max` from `-∞` over a NONEMPTY family of coerced reals is a coerced real: the family's maximum. -/
theorem fold_max_bot_coe {α : Type*} (s : Finset α) (hs : s.Nonempty) (f : α → ℝ) :
    s.fold max (⊥ : EReal) (fun i => (f i : EReal)) = ((s.sup' hs f : ℝ) : EReal) := by
  induction hs using Finset.Nonempty.cons_induction with
  | singleton a => simp
  | cons a s ha hs ih =>
    rw [Finset.fold_cons, ih, Finset.sup'_cons hs, max_coe]

/-- The same when each element is only known to be a coerced real. -/
theorem fold_max_bot_eq_coe {α : Type*} (s : Finset α) (hs : s.Nonempty) (g : α → EReal) (f : α → ℝ)
    (hg : ∀ i ∈ s, g i = (f i : EReal)) :
    s.fold max (⊥ : EReal) g = ((s.sup' hs f : ℝ) : EReal) := by
  rw [← fold_max_bot_coe s hs f]
  exact Finset.fold_congr hg

/-- In particular it is SOME real, above every element. -/
theorem fold_max_bot_real {α : Type*} (s : Finset α) (hs : s.Nonempty) (g : α → EReal) (f : α → ℝ)
    (hg : ∀ i ∈ s, g i = (f i : EReal)) :
    ∃ m : ℝ, s.fold max (⊥ : EReal) g = (m : EReal) ∧ ∀ i ∈ s, f i ≤ m :=
  ⟨s.sup' hs f, fold_max_bot_eq_coe s hs g f hg, fun i hi => Finset.le_sup' f hi⟩

/-! ### The float operations of the exact reading -/

theorem addf_coe (x y : ℝ) : FloatOps.addf (F := Ideal) (φ := φ) (x : EReal) (y : EReal) = ((x + y : ℝ) : EReal) :=
  add_coe x y
theorem subf_coe (x y : ℝ) : FloatOps.subf (F := Ideal) (φ := φ) (x : EReal) (y : EReal) = ((x - y : ℝ) : EReal) :=
  sub_coe x y
theorem mulf_coe (x y : ℝ) : FloatOps.mulf (F := Ideal) (φ := φ) (x : EReal) (y : EReal) = ((x * y : ℝ) : EReal) :=
  mul_coe x y
theorem maximumf_coe (x y : ℝ) :
    FloatOps.maximumf (F := Ideal) (φ := φ) (x : EReal) (y : EReal) = ((max x y : ℝ) : EReal) :=
  max_coe x y
theorem expf_coe (x : ℝ) : FloatOps.exp (F := Ideal) (φ := φ) (x : EReal) = ((Real.exp x : ℝ) : EReal) := rfl
theorem divf_coe {y : ℝ} (hy : y ≠ 0) (x : ℝ) :
    FloatOps.divf (F := Ideal) (φ := φ) (x : EReal) (y : EReal) = ((x / y : ℝ) : EReal) :=
  div_coe hy x

/-- The host's quotient, exponential and square root are the same functions. -/
theorem hostDivf_coe {y : ℝ} (hy : y ≠ 0) (x : ℝ) :
    FloatOps.hostDivf (F := Ideal) (φ := φ) (x : EReal) (y : EReal) = ((x / y : ℝ) : EReal) :=
  div_coe hy x
theorem hostExp_coe (x : ℝ) :
    FloatOps.hostUnary (F := Ideal) .exp (φ := φ) (x : EReal) = ((Real.exp x : ℝ) : EReal) := rfl
theorem hostSqrt_1024 :
    FloatOps.hostUnary (F := Ideal) .sqrt (φ := φ) ((1024 : ℝ) : EReal) = ((32 : ℝ) : EReal) := sqrt_1024

/-- A fold of the float maximum is the fold of `max`. -/
theorem fold_maximumf_eq {α : Type*} (s : Finset α) (a : EReal) (g : α → EReal) :
    s.fold (FloatOps.maximumf (F := Ideal) (φ := φ)) a g = s.fold max a g := rfl

/-! ### What a few 32-bit words denote -/

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The large negative finite number the word `0xFF333332` denotes: `-(2^23 + 0x333332) · 2^104`. -/
def negBig : ℝ := -(11744050 * 2 ^ 104)

theorem ofBits_negBig : Ideal.ofBits .f32 0xFF333332#32 = ((negBig : ℝ) : EReal) := by
  simp [Ideal.ofBits, Ideal.ieee, -EReal.coe_mul, negBig]

theorem ofBits_negBig_real : ∃ x : ℝ, Ideal.ofBits .f32 0xFF333332#32 = (x : EReal) := ⟨negBig, ofBits_negBig⟩

/-- `1 / √1024`, computed on the host from the words for `1` and `1024`, is the number the word for `1/32` denotes. -/
theorem host_one_div_sqrt_1024 :
    FloatOps.hostDivf (F := Ideal) (φ := .f32) (Ideal.ofBits .f32 0x3F800000#32)
        (FloatOps.hostUnary (F := Ideal) .sqrt (φ := .f32) (Ideal.ofBits .f32 0x44800000#32))
      = ((1 / 32 : ℝ) : EReal) := by
  rw [ofBits_one, ofBits_1024, hostSqrt_1024, hostDivf_coe (by norm_num)]

theorem host_one_div_sqrt_1024_eq_word :
    FloatOps.hostDivf (F := Ideal) (φ := .f32) (Ideal.ofBits .f32 0x3F800000#32)
        (FloatOps.hostUnary (F := Ideal) .sqrt (φ := .f32) (Ideal.ofBits .f32 0x44800000#32))
      = Ideal.ofBits .f32 0x3D000000#32 := by
  rw [host_one_div_sqrt_1024, ofBits_inv32]

end Cert.IdealReal

end
-- ==== Proof.RefRead.lean ====
/-
  The reference's stage functions read at one entry, on the extended reals. Every operation is exact there, so each
  entry of a stage's result is a closed expression in the entries of its arguments: the affine layer at (r, j) is
  Σ_c x(r, c)·W(c, j) + b(j); the normalised activations at (r, j) are ((h(r, j) − μ(j))·σ⁻¹(j))·γ(j) + β(j); the squared
  norm of code k is Σ_j E(k, j)²; the negative squared distance at (r, k) is −((Σ_j hn(r, j)² − 2·Σ_j hn(r, j)·E(k, j)) + ‖E_k‖²);
  the perturbed logit at (r, k) is l(r, k) − log(−log(u(r, k) + c) + c), the division by the temperature 1 changing
  nothing; the softmax at (r, k) is exp(y(r, k) − M_r) / Σ_k' exp(y(r, k') − M_r) with M_r the fold of max along row r
  from −∞; and the mixture at (r, j) is Σ_k a(r, k)·E(k, j). No finiteness is assumed: the equations hold for arbitrary
  extended reals, using only that + and · are commutative monoid operations, that 0 + x = x, that max(a, fold max a f)
  is the fold, and that x / 1 = x.
-/
import proofs.«145537_j65034394796697_1_alg».proof.Proof.RefFns
import proofs.«145537_j65034394796697_1_alg».proof.Proof.RowSpec
import proofs.«145537_j65034394796697_1_alg».proof.Proof.LibRowOps
import proofs.«145537_j65034394796697_1_alg».proof.Proof.LibGcnLayout
import proofs.«145537_j65034394796697_1_alg».proof.Proof.LibIdealReal
import Idealize.ShloMosaic.Lib.ValueIdx
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Cert.ReferenceIdeal.RefFns Idealize.ShloMosaic Idealize.ShloMosaic.TcCoe
  Idealize.ShloMosaic.ValueIdx

/-! ## The broadcasts -/

/-- A vector over the 256 features laid along every row: entry (r, j) is entry j. -/
theorem rows256_apply {F : FTy → Type} [FloatOps F] (v : FVec F S256 .f32) (r : Fin 8192) (j : Fin 256) :
    rows256 v (ix2 r j) = v (ix1 j) :=
  (GcnLayout.row_spread_apply _ _ r j).trans (GcnLayout.row_bcast_apply _ v 0 j)

/-- A vector over the 2048 codes laid along every row: entry (r, k) is entry k. -/
theorem rows2048_apply {F : FTy → Type} [FloatOps F] (v : FVec F S2048 .f32) (r : Fin 8192) (k : Fin 2048) :
    rows2048 v (ix2 r k) = v (ix1 k) :=
  (GcnLayout.row_spread_apply _ _ r k).trans (GcnLayout.row_bcast_apply _ v 0 k)

/-- A vector over the 8192 rows laid along every column: entry (r, k) is entry r. -/
theorem cols8192_apply {F : FTy → Type} [FloatOps F] (v : FVec F S8192 .f32) (r : Fin 8192) (k : Fin 2048) :
    cols8192 v (ix2 r k) = v (ix1 r) :=
  (GcnLayout.col_spread_apply _ _ r k).trans (RowOps.vec_col_apply _ v r 0)

/-- One scalar word at every entry: each entry is the word's value. -/
theorem splat_apply (w : BitVec 32) (i : S8192x2048.Idx) : splat (F := Ideal) w i = Ideal.ofBits .f32 w := rfl

/-! ## The sum along a row -/

/-- A row index with column c put back is (r, c). -/
theorem lift_row {m n : Nat} (h : (⟨2, ![m, n]⟩ : Shape).Reduces [1] (⟨1, ![m]⟩ : Shape)) (r : Fin m)
    (c : Fin ((⟨2, ![m, n]⟩ : Shape).size 1)) : h.lift (ix1 r) c = ix2 r (⟨c.val, c.isLt⟩ : Fin n) := by
  funext a; apply Fin.ext
  match a with
  | ⟨0, _⟩ => rfl
  | ⟨1, _⟩ => rfl

/-- The host's sum along the rows of a matrix from the word of zero, at row r: the sum of the row's entries. -/
theorem rowSum_apply {m n : Nat} (h' : (⟨2, ![m, n]⟩ : Shape).ReducesTo [1] (⟨1, ![m]⟩ : Shape))
    (h : (⟨2, ![m, n]⟩ : Shape).Reduces [1] (⟨1, ![m]⟩ : Shape)) (hu : 0 < S_.numel)
    (x : FVec Ideal ⟨2, ![m, n]⟩ .f32) (r : Fin m) :
    Host.reduceAdd x (constant S_ .f32 0x00000000#32) h' hu (ix1 r) = ∑ c : Fin n, x (ix2 r c) := by
  show Ideal.hostReduceAdd h' x (Ideal.ofBits .f32 0x00000000#32) (ix1 r) = _
  rw [Ideal.hostReduceAdd_single h' h, Ideal.ofBits_zero_f32, zero_add]
  exact Finset.sum_congr rfl fun c _ => congrArg x (lift_row h r c)

/-! ## The affine layer -/

/-- The affine layer at (r, j): the product's sum over the 1024 inputs, plus the bias. -/
theorem linOf_apply (x : FVec Ideal S8192x1024 .f32) (W : FVec Ideal S1024x256 .f32) (b : FVec Ideal S256 .f32)
    (r : Fin 8192) (j : Fin 256) :
    linOf x W b (ix2 r j) = (∑ c : Fin 1024, x (ix2 r c) * W (ix2 c j)) + b (ix1 j) := by
  unfold linOf
  rw [addf_apply, rows256_apply, RowOps.dotGeneral_apply dot_S8192x1024_S1024x256_S8192x256_1_0_0_1_n_n rfl]

/-! ## The squared norms of the code vectors -/

/-- The squared norm of code k: the sum of the squares of its 256 entries. -/
theorem codeNormsOf_apply (E : FVec Ideal S2048x256 .f32) (k : Fin 2048) :
    codeNormsOf E (ix1 k) = ∑ j : Fin 256, E (ix2 k j) * E (ix2 k j) := by
  unfold codeNormsOf
  rw [rowSum_apply _ (by decide)]
  rfl

/-! ## The normalised activations -/

/-- The normalised activations at (r, j): row r's normalisation at feature j. -/
theorem normOf_apply (h : FVec Ideal S8192x256 .f32) (mu s g be : FVec Ideal S256 .f32) (r : Fin 8192) (j : Fin 256) :
    normOf h mu s g be (ix2 r j)
      = VqRow.norm (fun j => h (ix2 r j)) (fun j => mu (ix1 j)) (fun j => s (ix1 j)) (fun j => g (ix1 j))
          (fun j => be (ix1 j)) j := by
  unfold normOf VqRow.norm
  rw [addf_apply, mulf_apply, mulf_apply, subf_apply, rows256_apply, rows256_apply, rows256_apply, rows256_apply]

/-! ## The Gumbel perturbation over the temperature 1 -/

/-- Division by the word of 1 changes nothing. -/
theorem div_one_word (x : EReal) : Ideal.div x (Ideal.ofBits .f32 0x3F800000#32) = x := by
  rw [Cert.IdealReal.ofBits_one, Ideal.div_coe one_ne_zero, one_div_one, EReal.coe_one, mul_one]

/-- The Gumbel perturbation at an entry: the perturbation of that entry's sample. -/
theorem gumbelOf_apply (u : FVec Ideal S8192x2048 .f32) (i : S8192x2048.Idx) : gumbelOf u i = VqRow.gumbel (u i) := rfl

/-- The perturbed logit at (r, k): the logit plus the perturbation of the sample there. -/
theorem perturbedOf_apply (l u : FVec Ideal S8192x2048 .f32) (r : Fin 8192) (k : Fin 2048) :
    perturbedOf l u (ix2 r k) = l (ix2 r k) + VqRow.gumbel (u (ix2 r k)) := by
  show Ideal.div (l (ix2 r k) + gumbelOf u (ix2 r k)) (Ideal.ofBits .f32 0x3F800000#32) = _
  rw [div_one_word, gumbelOf_apply]

/-! ## The mixture -/

/-- The mixture at (r, j): the code vectors' feature j weighted by row r. -/
theorem mixOf_apply (a : FVec Ideal S8192x2048 .f32) (E : FVec Ideal S2048x256 .f32) (r : Fin 8192) (j : Fin 256) :
    mixOf a E (ix2 r j) = VqRow.mix (fun k => a (ix2 r k)) (fun k j => E (ix2 k j)) j :=
  RowOps.dotGeneral_apply dot_S8192x2048_S2048x256_S8192x256_1_0_0_1_n_n rfl none a E r j

/-! ## The negative squared distances -/

/-- The transposed code book at (j, k) is the code book at (k, j). -/
theorem transpose_codes_apply (E : FVec Ideal S2048x256 .f32) (j : Fin 256) (k : Fin 2048) :
    transpose S256x2048 [1, 0] E transposes_S2048x256_S256x2048_1_0 (ix2 j k) = E (ix2 k j) :=
  transpose_apply [1, 0] E transposes_S2048x256_S256x2048_1_0 (ix2 j k) (ix2 k j) (fun b => match b with
    | ⟨0, _⟩ => rfl
    | ⟨1, _⟩ => rfl)

/-- The negative squared distance at (r, k): row r against code k. -/
theorem logitsOf_apply (hn : FVec Ideal S8192x256 .f32) (E : FVec Ideal S2048x256 .f32) (r : Fin 8192) (k : Fin 2048) :
    logitsOf hn E (ix2 r k)
      = VqRow.logit (fun j => hn (ix2 r j)) (fun k j => E (ix2 k j)) (fun k => codeNormsOf E (ix1 k)) k := by
  unfold logitsOf VqRow.logit
  show -((cols8192 _ (ix2 r k) - splat (F := Ideal) 0x40000000#32 (ix2 r k) * Host.dotGeneral _ none hn _ (ix2 r k))
      + rows2048 _ (ix2 r k)) = _
  rw [cols8192_apply, rows2048_apply, splat_apply, rowSum_apply _ (by decide),
    RowOps.dotGeneral_apply dot_S8192x256_S256x2048_S8192x2048_1_0_0_1_n_n rfl]
  simp only [mulf_apply]
  have e : (fun c : Fin 256 => hn (ix2 r c) * transpose S256x2048 [1, 0] E transposes_S2048x256_S256x2048_1_0 (ix2 c k))
      = fun c : Fin 256 => hn (ix2 r c) * E (ix2 k c) := funext fun c => by rw [transpose_codes_apply]
  rw [e]
  rfl

/-! ## The softmax along a row -/

/-- The fold's start against the fold of max from that start is the fold. -/
theorem max_fold_max_self {α : Type} (s : Finset α) (a : EReal) (f : α → EReal) :
    max a (s.fold max a f) = s.fold max a f :=
  max_eq_right ((Finset.le_fold_max a).2 (Or.inl le_rfl))

/-- The row maximum at r, as the host takes it: the fold of max along row r from −∞. -/
theorem rowMaxOf_apply (y : FVec Ideal S8192x2048 .f32) (r : Fin 8192) :
    rowMaxOf y (ix1 r) = VqRow.rowMax (fun k => y (ix2 r k)) := by
  have h : S8192x2048.Reduces [1] S8192 := by decide
  have hf : (y ∘ h.lift (ix1 r)) = fun k : Fin 2048 => y (ix2 r k) := funext fun k => congrArg y (lift_row h r k)
  unfold rowMaxOf VqRow.rowMax VqRow.negInf
  rw [maximumf_apply, Host.reduce_eq_fold_single FloatOps.maximumf y _ reducesTo_S8192x2048_S8192_d1 h h_S_, hf]
  exact max_fold_max_self Finset.univ (Ideal.ofBits .f32 0xFF800000#32) fun k : Fin 2048 => y (ix2 r k)

/-- The shifted exponential at (r, k): exp of the entry less its row's maximum. -/
theorem expShiftOf_apply (y : FVec Ideal S8192x2048 .f32) (r : Fin 8192) (k : Fin 2048) :
    expShiftOf y (ix2 r k) = Ideal.exp (y (ix2 r k) - VqRow.rowMax (fun k => y (ix2 r k))) := by
  show Ideal.exp (y (ix2 r k) - cols8192 (rowMaxOf y) (ix2 r k)) = _
  rw [cols8192_apply, rowMaxOf_apply]

/-- The softmax at (r, k): row r's softmax at k. -/
theorem softmaxOf_apply (y : FVec Ideal S8192x2048 .f32) (r : Fin 8192) (k : Fin 2048) :
    softmaxOf y (ix2 r k) = VqRow.softmax (fun k => y (ix2 r k)) k := by
  unfold softmaxOf VqRow.softmax
  show Ideal.div (expShiftOf y (ix2 r k)) (cols8192 (F := Ideal) _ (ix2 r k)) = _
  rw [cols8192_apply, rowSum_apply _ (by decide)]
  simp only [expShiftOf_apply]

end Cert.ReferenceIdeal.RefRead

end
-- ==== Proof.KBlocks0.lean ====
/-
  The affine layer's output array after the first region. The grid has 8 points; point t reads rows 1024·t … 1024·t + 1023
  of x, all of W and the bias row, and writes back rows 1024·t … 1024·t + 1023 of the output. Entry (p, q) of the block
  it writes is Σ_c x(1024·t + p, c)·W(c, q) + b(q), which is entry (1024·t + p, q) of the reference's x·W + b; the eight
  blocks tile the 8192 rows, so the array ends holding x·W + b whole.
-/
import proofs.«145537_j65034394796697_1_alg».proof.Proof.Gen.KernelIdeal.Frame
import proofs.«145537_j65034394796697_1_alg».proof.Proof.KHost
import proofs.«145537_j65034394796697_1_alg».proof.Proof.KRead0
import proofs.«145537_j65034394796697_1_alg».proof.Proof.RefRead
import Idealize.ShloMosaic.Lib.Pipeline.Value

set_option maxRecDepth 16384

noncomputable section

open scoped BigOperators

namespace Cert.KernelIdeal.KBlocks0

open Cert.KernelIdeal Cert.KernelIdeal.Gen Cert.KernelIdeal.KHost Cert.KernelIdeal.KRead
open Idealize.ShloMosaic Idealize.ShloMosaic.TcCoe Idealize.SL.Sem Idealize.ShloMosaic.ValueIdx
open Idealize.ShloMosaic.Pipeline (Dat)
open Cert.ReferenceIdeal.RefFns (linOf)

variable (m : (ℓ : Loc nD τ sig) → Buf (Elt Ideal) ℓ) (ρ : Dev nD → PrngReg)

theorem hz : (![0, 0] : Fin 2 → Nat) = fun _ => 0 := funext fun a => by fin_cases a <;> rfl

/-- The block indices over the grid: x and the output move one block of rows per point; W and the bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A vector [b] read as a row [1, b]: entry (0, q) is entry q. -/
theorem vec_row_apply {α : Type} {b : Nat} (h : (⟨1, ![b]⟩ : Shape).ShapeCasts ⟨2, ![1, b]⟩)
    (v : (⟨1, ![b]⟩ : Shape).Idx → α) (z : Fin 1) (q : Fin b) :
    shapeCast ⟨2, ![1, b]⟩ v h (ix2 z q) = v (ix1 q) := by
  refine shapeCast_apply v h (ix2 z q) (ix1 q) ?_
  rw [Shape.rowMajor_val_one, Shape.rowMajor_val_two]
  show q.val = z.val * b + q.val
  have := z.isLt
  have hz0 : z.val = 0 := by omega
  rw [hz0]; omega

/-- The x block at point t is rows 1024·t … of x. -/
theorem blk_x (c : Dev nD) (t : Fin cfg0.N) (j : S1024x1024.Idx) (i : S8192x1024.Idx)
    (h0 : (i 0).val = t.val * 1024 + (j 0).val) (h1 : (i 1).val = (j 1).val) :
    (iblk0 (V1 m ρ) c 0 t : Vec Ideal S1024x1024 .f32) j
      = (m ((c : Thread nD τ).loc main_arg0) : S8192x1024.Idx → Elt Ideal .f32) i := by
  obtain ⟨e0, e1, -⟩ := idx0 t
  unfold iblk0
  rw [View.read_apply]
  show V1 m ρ c main_arg0 _ = _
  rw [V1_x]
  refine congrArg _ ?_
  funext a; apply Fin.ext
  match a with
  | ⟨0, _⟩ => show win0_0.index t (0 : Fin 2) * 1024 + 1 * (j 0).val = (i 0).val; rw [e0, h0]; omega
  | ⟨1, _⟩ => show win0_0.index t (1 : Fin 2) * 1024 + 1 * (j 1).val = (i 1).val; rw [e1, h1]; omega

/-- The W block at every point is W. -/
theorem blk_w (c : Dev nD) (t : Fin cfg0.N) (j : S1024x256.Idx) :
    (iblk0 (V1 m ρ) c 1 t : Vec Ideal S1024x256 .f32) j
      = (m ((c : Thread nD τ).loc main_arg2) : S1024x256.Idx → Elt Ideal .f32) j := by
  obtain ⟨-, -, e2, e3, -⟩ := idx0 t
  unfold iblk0
  rw [View.read_apply]
  show V1 m ρ c main_arg2 _ = _
  rw [V1_w]
  refine congrArg _ ?_
  funext a; apply Fin.ext
  match a with
  | ⟨0, _⟩ => show win0_1.index t (0 : Fin 2) * 1024 + 1 * (j 0).val = (j 0).val; rw [e2]; omega
  | ⟨1, _⟩ => show win0_1.index t (1 : Fin 2) * 256 + 1 * (j 1).val = (j 1).val; rw [e3]; omega

/-- The bias block at every point is the bias as a row. -/
theorem blk_b (c : Dev nD) (t : Fin cfg0.N) (q : Fin 256) :
    (iblk0 (V1 m ρ) c 2 t : Vec Ideal S1x256 .f32) (ix2 (0 : Fin 1) q)
      = (m ((c : Thread nD τ).loc main_arg3) : S256.Idx → Elt Ideal .f32) (ix1 q) := by
  obtain ⟨-, -, -, -, e4, e5, -⟩ := idx0 t
  unfold iblk0
  rw [View.read_apply]
  show V1 m ρ c main_v0 _ = _
  rw [V1_b]
  refine (congrArg _ ?_).trans (vec_row_apply _ _ (0 : Fin 1) q)
  funext a; apply Fin.ext
  match a with
  | ⟨0, _⟩ => show win0_2.index t (0 : Fin 2) * 1 + 1 * 0 = 0; rw [e4]
  | ⟨1, _⟩ => show win0_2.index t (1 : Fin 2) * 256 + 1 * q.val = q.val; rw [e5]; omega

/-- One entry of a written block against the whole-array function, over variables: rows p of the block and r of the
    array correspond. -/
theorem entry_h (x0 : Vec Ideal S1024x1024 .f32) (x1 : Vec Ideal S1024x256 .f32) (x2 : Vec Ideal S1x256 .f32)
    (X : FVec Ideal S8192x1024 .f32) (W : FVec Ideal S1024x256 .f32) (b : FVec Ideal S256 .f32)
    (y : S1024x256.Idx) (r : Fin 8192)
    (hx : ∀ c : Fin 1024, x0 (ix2 (y 0) c) = X (ix2 r c)) (hw : ∀ j : S1024x256.Idx, x1 j = W j)
    (hb : ∀ q : Fin 256, x2 (ix2 (0 : Fin 1) q) = b (ix1 q)) :
    k0_pay1 x0 x1 x2 y = linOf X W b (ix2 r (y 1)) := by
  obtain ⟨p, q, rfl⟩ : ∃ (p : Fin 1024) (q : Fin 256), y = ix2 p q := ⟨y 0, y 1, eq_ix2 y⟩
  rw [lin_pay, Cert.ReferenceIdeal.RefRead.linOf_apply, hb q]
  exact congrArg (· + b (ix1 q)) (Finset.sum_congr rfl fun c _ => by rw [hx c, hw])

/-- What point t writes back is block t of x·W + b. -/
theorem flushed_h (c : Dev nD) (t : Fin cfg0.N) :
    (dat0 (V1 m ρ) c).flushed 3 t = ((cfg0.win 3).blk t).view.read (Elt Ideal)
      (linOf (F := Ideal) (m ((c : Thread nD τ).loc main_arg0)) (m ((c : Thread nD τ).loc main_arg2)) (m ((c : Thread nD τ).loc main_arg3))) := by
  show (cfg0.win 3).cut (grid0.coords t) ((dat0 (V1 m ρ) c).after 3 t) = _
  rw [after0_3]
  unfold out0_3
  rw [View.canon_unit_zero hz]
  simp only [View.ld_unit_zero (S := S1024x1024) hz, View.ld_unit_zero (S := S1024x256) hz, View.ld_unit_zero (S := S1x256) hz]
  obtain ⟨-, -, -, -, -, -, e6, e7⟩ := idx0 t
  have ht : t.val < 8 := Nat.lt_of_lt_of_eq t.isLt N_0
  funext y
  have hy0 : (y 0).val < 1024 := (y 0).isLt
  rw [View.read_apply]
  refine (entry_h _ _ _ _ _ _ y ⟨t.val * 1024 + (y 0).val, by omega⟩ (fun c' => blk_x m ρ c t _ _ rfl rfl)
    (fun j => blk_w m ρ c t j) (fun q => blk_b m ρ c t q)).trans (congrArg _ ?_)
  funext a; apply Fin.ext
  match a with
  | ⟨0, _⟩ => show t.val * 1024 + (y 0).val = win0_3.index t (0 : Fin 2) * 1024 + 1 * (y 0).val; rw [e6]; omega
  | ⟨1, _⟩ => show (y 1).val = win0_3.index t (1 : Fin 2) * 256 + 1 * (y 1).val; rw [e7]; omega

/-- An index is in point t's output block iff its coordinates are in the block's ranges. -/
theorem mem_blk_h (t : Fin cfg0.N) (i : S8192x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v1).slice (win0_3.rect t)).set ↔ _
  rw [View.set_slice_whole, Rect.mem_set_unit]
  exact Iff.rfl

/-- The eight blocks tile the array: row r is in block r / 1024. -/
theorem cover_h (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  let t : Fin cfg0.N := ⟨(i 0).val / 1024, by rw [show cfg0.N = 8 from N_0]; omega⟩
  obtain ⟨-, -, -, -, -, -, e6, e7⟩ := idx0 t
  have e6' : win0_3.index t (0 : Fin 2) = (i 0).val / 1024 := e6
  refine ⟨t, flush0_3 t, ?_⟩
  rw [mem_blk_h]
  intro a
  match a with
  | ⟨0, _⟩ => show win0_3.index t (0 : Fin 2) * 1024 ≤ (i 0).val ∧ (i 0).val < win0_3.index t (0 : Fin 2) * 1024 + 1024; rw [e6']; omega
  | ⟨1, _⟩ => show win0_3.index t (1 : Fin 2) * 256 ≤ (i 1).val ∧ (i 1).val < win0_3.index t (1 : Fin 2) * 256 + 256; rw [e7]; omega

/-- The affine layer's output array after the first region: x·W + b. -/
theorem final_h (c : Dev nD) : (dat0 (V1 m ρ) c).arrAt 3 cfg0.N
    = linOf (F := Ideal) (m ((c : Thread nD τ).loc main_arg0)) (m ((c : Thread nD τ).loc main_arg2)) (m ((c : Thread nD τ).loc main_arg3)) :=
  (dat0 (V1 m ρ) c).arrAt_eq_of_cover 3 _ (fun t _ => flushed_h m ρ c t) cover_h

end Cert.KernelIdeal.KBlocks0

end
-- ==== Proof.KRead1.lean ====
/-
  The quantisation kernel's stored blocks at an entry. For a block of 256 rows of h, the row statistics μ, σ⁻¹, the scale
  γ, the shift β, the transposed code book and the code norms as rows: the body normalises each row, takes the row's
  negative squared distances to the 2048 codes in the expanded form, and stores their row softmax as the first result;
  with the uniform samples it perturbs the distances by the Gumbel term, takes that row's softmax and stores its product
  with the code book as the second result. Each entry is read as one row of the computation (RowSpec): 0 − x is −x, a
  product with the word of 1 changes nothing, a lane sum is the sum over the row, a lane maximum is the fold of max
  from −∞, and a product into a zero accumulator is the sum over the contracted coordinate.
-/
import proofs.«145537_j65034394796697_1_alg».proof.Proof.Gen.KernelIdeal.Skeleton
import proofs.«145537_j65034394796697_1_alg».proof.Proof.KRead0
import proofs.«145537_j65034394796697_1_alg».proof.Proof.RowSpec
import proofs.«145537_j65034394796697_1_alg».proof.Proof.LibRowOps
import proofs.«145537_j65034394796697_1_alg».proof.Proof.LibGcnLayout
import proofs.«145537_j65034394796697_1_alg».proof.Proof.LibIdealReal
import Idealize.ShloMosaic.Lib.Pipeline.Value
import Idealize.ShloMosaic.Lib.ValueIdx
import Idealize.ShloMosaic.PureOps.Ideal.Laws

noncomputable section

open scoped BigOperators

namespace Cert.KernelIdeal.KRead

open Cert.KernelIdeal Cert.KernelIdeal.Gen
open Idealize.ShloMosaic Idealize.ShloMosaic.TcCoe Idealize.ShloMosaic.ValueIdx

/-- f32 is a float format, and the two accumulator words are the neutral words of their reductions. -/
theorem hfmt : FKind.Formats .f32 := .inl rfl
theorem hadd : (0x00000000#32 : BitVec 32) = FKind.add.neutral .f32 hfmt := rfl
theorem hmax : (0xFF800000#32 : BitVec 32) = FKind.maximumf.neutral .f32 hfmt := rfl

/-! ## Rows of a matrix -/

/-- A row index with column c put back is (r, c). -/
theorem lift_row {m n : Nat} (h : (⟨2, ![m, n]⟩ : Shape).Reduces [1] (⟨1, ![m]⟩ : Shape)) (r : Fin m)
    (c : Fin ((⟨2, ![m, n]⟩ : Shape).size 1)) : h.lift (ix1 r) c = ix2 r (⟨c.val, c.isLt⟩ : Fin n) := by
  funext a; apply Fin.ext
  match a with
  | ⟨0, _⟩ => rfl
  | ⟨1, _⟩ => rfl

/-- A kernel's lane sum of a matrix at row r: the sum of the row's entries. -/
theorem rowSumK {m n : Nat} (h : (⟨2, ![m, n]⟩ : Shape).Reduces [1] (⟨1, ![m]⟩ : Shape)) (hφ : FKind.Formats .f32)
    (hacc : (0x00000000#32 : BitVec 32) = FKind.add.neutral .f32 hφ) (x : FVec Ideal ⟨2, ![m, n]⟩ .f32) (r : Fin m) :
    multiReduction .add [1] ⟨1, ![m]⟩ x 0x00000000#32 h hφ hacc (ix1 r) = ∑ c : Fin n, x (ix2 r c) := by
  rw [Ideal.multiReduction_add_single]
  exact Finset.sum_congr rfl fun c _ => congrArg x (lift_row h r c)

/-- A kernel's lane maximum of a matrix at row r: the fold of max over the row from the word of −∞. -/
theorem rowMaxK {m n : Nat} (h : (⟨2, ![m, n]⟩ : Shape).Reduces [1] (⟨1, ![m]⟩ : Shape)) (hφ : FKind.Formats .f32)
    (hacc : (0xFF800000#32 : BitVec 32) = FKind.maximumf.neutral .f32 hφ) (x : FVec Ideal ⟨2, ![m, n]⟩ .f32) (r : Fin m) :
    multiReduction .maximumf [1] ⟨1, ![m]⟩ x 0xFF800000#32 h hφ hacc (ix1 r)
      = (Finset.univ : Finset (Fin n)).fold max (Ideal.ofBits .f32 0xFF800000#32) (fun c => x (ix2 r c)) := by
  rw [Ideal.multiReduction_maximumf_single]
  have e : (x ∘ h.lift (ix1 r)) = fun c : Fin n => x (ix2 r c) := funext fun c => congrArg x (lift_row h r c)
  rw [e]
  rfl

/-- A vector [a] read as a column [a, 1]: entry (p, 0) is entry p. -/
theorem vec_colcast_apply {α : Type} {a : Nat} (h : (⟨1, ![a]⟩ : Shape).ShapeCasts ⟨2, ![a, 1]⟩)
    (v : (⟨1, ![a]⟩ : Shape).Idx → α) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A row quantity [a] spread over the columns of [a, b] as the kernel does it (cast to a column, broadcast). -/
theorem spread_apply {a b : Nat} (hc : (⟨1, ![a]⟩ : Shape).ShapeCasts ⟨2, ![a, 1]⟩)
    (hb : (⟨2, ![a, 1]⟩ : Shape).Broadcasts ⟨2, ![a, b]⟩) (v : FVec Ideal ⟨1, ![a]⟩ .f32) (p : Fin a) (q : Fin b) :
    broadcastTo ⟨2, ![a, b]⟩ (shapeCast ⟨2, ![a, 1]⟩ v hc) hb (ix2 p q) = v (ix1 p) :=
  (RowOps.col_to_apply hb _ p q).trans (vec_colcast_apply hc v p 0)

/-! ## The normalised block -/

/-- The normalised block ((h − μ)·σ⁻¹)·γ + β, the four row vectors along every row. -/
def normBlk (v0 : Vec Ideal S256x256 .f32) (v2 v6 v10 v14 : Vec Ideal S1x256 .f32) : FVec Ideal S256x256 .f32 :=
  addf (F := Ideal) (mulf (F := Ideal) (mulf (F := Ideal) (subf (F := Ideal) (shapeCast S256x256 v0 shapeCasts_S256x256_S256x256)
        (broadcastTo S256x256 (shapeCast S1x256 v2 shapeCasts_S1x256_S1x256) broadcasts_S1x256_S256x256))
      (broadcastTo S256x256 (shapeCast S1x256 v6 shapeCasts_S1x256_S1x256) broadcasts_S1x256_S256x256))
    (broadcastTo S256x256 (shapeCast S1x256 v10 shapeCasts_S1x256_S1x256) broadcasts_S1x256_S256x256))
    (broadcastTo S256x256 (shapeCast S1x256 v14 shapeCasts_S1x256_S1x256) broadcasts_S1x256_S256x256)

theorem normBlk_apply (v0 : Vec Ideal S256x256 .f32) (v2 v6 v10 v14 : Vec Ideal S1x256 .f32) (p j : Fin 256) :
    normBlk v0 v2 v6 v10 v14 (ix2 p j)
      = VqRow.norm (fun j => v0 (ix2 p j)) (fun j => v2 (ix2 (0 : Fin 1) j)) (fun j => v6 (ix2 (0 : Fin 1) j))
          (fun j => v10 (ix2 (0 : Fin 1) j)) (fun j => v14 (ix2 (0 : Fin 1) j)) j := by
  unfold normBlk
  rw [addf_apply, mulf_apply, mulf_apply, subf_apply]
  simp only [shapeCast_self, row_to_apply]
  rfl

/-! ## The distances -/

/-- The negative squared distances of a block of normalised rows. -/
def logitBlk (hn : FVec Ideal S256x256 .f32) (v22 : Vec Ideal S256x2048 .bf16) (v29 : Vec Ideal S1x2048 .f32) :
    FVec Ideal S256x2048 .f32 :=
  subf (F := Ideal) (broadcast S256x2048 (Scalar.ofBits (F := Ideal) .f32 0x00000000#32))
    (addf (F := Ideal)
      (subf (F := Ideal)
        (broadcastTo S256x2048 (shapeCast S256x1
          (multiReduction (F := Ideal) .add [1] S256 (mulf (F := Ideal) hn hn) 0x00000000#32 reduces_S256x256_S256 hfmt hadd)
          shapeCasts_S256_S256x1) broadcasts_S256x1_S256x2048)
        (mulf (F := Ideal) (broadcast S256x2048 (Scalar.ofBits (F := Ideal) .f32 0x40000000#32))
          (matmul (F := Ideal) (φ₁ := .bf16) (φ₂ := .bf16) dot_S256x256_S256x2048_S256x2048_1_0_0_1_n_n none (truncf (F := Ideal) .bf16 hn bitsLt_bf16_f32)
            (shapeCast S256x2048 (v22 : FVec Ideal S256x2048 .bf16) shapeCasts_S256x2048_S256x2048) (constant (F := Ideal) S256x2048 .f32 0x00000000#32))))
      (broadcastTo S256x2048 (shapeCast S1x2048 v29 shapeCasts_S1x2048_S1x2048) broadcasts_S1x2048_S256x2048))

theorem k1_pay3_eq (v0 : Vec Ideal S256x256 .f32) (v2 v6 v10 v14 : Vec Ideal S1x256 .f32) (v22 : Vec Ideal S256x2048 .bf16)
    (v29 : Vec Ideal S1x2048 .f32) : k1_pay3 v0 v2 v6 v10 v14 v22 v29 = logitBlk (normBlk v0 v2 v6 v10 v14) v22 v29 := rfl

theorem logitBlk_apply (hn : FVec Ideal S256x256 .f32) (v22 : Vec Ideal S256x2048 .bf16) (v29 : Vec Ideal S1x2048 .f32)
    (p : Fin 256) (k : Fin 2048) :
    logitBlk hn v22 v29 (ix2 p k)
      = VqRow.logit (fun j => hn (ix2 p j)) (fun k j => v22 (ix2 j k)) (fun k => v29 (ix2 (0 : Fin 1) k)) k := by
  unfold logitBlk
  rw [subf_apply, addf_apply, subf_apply, mulf_apply, spread_apply, rowSumK,
    RowOps.matmul_apply dot_S256x256_S256x2048_S256x2048_1_0_0_1_n_n rfl none _ _ p k, shapeCast_self, shapeCast_self,
    row_to_apply]
  show Ideal.ofBits .f32 0x00000000#32 - _ = _
  rw [Ideal.ofBits_zero_f32, zero_sub]
  rfl

/-! ## The row softmax -/

/-- The shifted exponentials of a block, row by row. -/
def expBlk (y : FVec Ideal S256x2048 .f32) : FVec Ideal S256x2048 .f32 :=
  exp (F := Ideal) (subf (F := Ideal) y (broadcastTo S256x2048 (shapeCast S256x1
    (multiReduction (F := Ideal) .maximumf [1] S256 y 0xFF800000#32 reduces_S256x2048_S256 hfmt hmax)
    shapeCasts_S256_S256x1) broadcasts_S256x1_S256x2048))

/-- The row softmax of a block. -/
def softBlk (y : FVec Ideal S256x2048 .f32) : FVec Ideal S256x2048 .f32 :=
  divf (F := Ideal) (expBlk y) (broadcastTo S256x2048 (shapeCast S256x1
    (multiReduction (F := Ideal) .add [1] S256 (expBlk y) 0x00000000#32 reduces_S256x2048_S256 hfmt hadd)
    shapeCasts_S256_S256x1) broadcasts_S256x1_S256x2048)

theorem expBlk_apply (y : FVec Ideal S256x2048 .f32) (p : Fin 256) (k : Fin 2048) :
    expBlk y (ix2 p k) = Ideal.exp (y (ix2 p k) - VqRow.rowMax (fun k => y (ix2 p k))) := by
  unfold expBlk
  show Ideal.exp (subf (F := Ideal) y _ (ix2 p k)) = _
  rw [subf_apply, spread_apply, rowMaxK]
  rfl

theorem softBlk_apply (y : FVec Ideal S256x2048 .f32) (p : Fin 256) (k : Fin 2048) :
    softBlk y (ix2 p k) = VqRow.softmax (fun k => y (ix2 p k)) k := by
  unfold softBlk
  rw [divf_apply, spread_apply, rowSumK, expBlk_apply]
  unfold VqRow.softmax
  exact congrArg _ (Finset.sum_congr rfl fun c _ => expBlk_apply y p c)

theorem k1_pay1_eq (v34 : FVec Ideal S256x2048 .f32) : k1_pay1 v34 = softBlk v34 := rfl

/-- The first result's block at (p, k): the softmax of row p of the distances. -/
theorem probs_pay (v34 : FVec Ideal S256x2048 .f32) (p : Fin 256) (k : Fin 2048) :
    k1_pay1 v34 (ix2 p k) = VqRow.softmax (fun k => v34 (ix2 p k)) k := by
  rw [k1_pay1_eq, softBlk_apply]

/-! ## The perturbed distances and the mixture -/

/-- The sample plus the small constant. -/
theorem u_pay (v35 : Vec Ideal S256x2048 .f32) (p : Fin 256) (k : Fin 2048) :
    k1_pay4 v35 (ix2 p k) = v35 (ix2 p k) + VqRow.tiny := rfl

/-- The perturbed distances of a block: (l + g(w))·1, g the outer half of the Gumbel term. -/
def pertBlk (v34 v37 : FVec Ideal S256x2048 .f32) : FVec Ideal S256x2048 .f32 :=
  mulf (F := Ideal) (addf (F := Ideal) v34
    (subf (F := Ideal) (broadcast S256x2048 (Scalar.ofBits (F := Ideal) .f32 0x00000000#32))
      (log (F := Ideal) (addf (F := Ideal)
        (subf (F := Ideal) (broadcast S256x2048 (Scalar.ofBits (F := Ideal) .f32 0x00000000#32)) (log (F := Ideal) v37))
        (broadcast S256x2048 (Scalar.ofBits (F := Ideal) .f32 0x2EDBE6FF#32))))))
    (broadcast S256x2048 (Scalar.ofBits (F := Ideal) .f32 0x3F800000#32))

theorem pertBlk_apply (v34 v37 : FVec Ideal S256x2048 .f32) (p : Fin 256) (k : Fin 2048) :
    pertBlk v34 v37 (ix2 p k) = v34 (ix2 p k) + VqRow.gumbelOuter (v37 (ix2 p k)) := by
  unfold pertBlk
  rw [mulf_apply, addf_apply, subf_apply]
  show (v34 (ix2 p k) + (Ideal.ofBits .f32 0x00000000#32
      - Ideal.log ((Ideal.ofBits .f32 0x00000000#32 - Ideal.log (v37 (ix2 p k))) + Ideal.ofBits .f32 0x2EDBE6FF#32)))
    * Ideal.ofBits .f32 0x3F800000#32 = _
  rw [Ideal.ofBits_zero_f32, zero_sub, zero_sub, Cert.IdealReal.ofBits_one, EReal.coe_one, mul_one]
  rfl

theorem k1_pay2_eq (v34 v37 : FVec Ideal S256x2048 .f32) (v69 : Vec Ideal S2048x256 .bf16) :
    k1_pay2 v34 v37 v69 = matmul (F := Ideal) (φ₁ := .bf16) (φ₂ := .bf16) dot_S256x2048_S2048x256_S256x256_1_0_0_1_n_n none
      (truncf (F := Ideal) .bf16 (softBlk (pertBlk v34 v37)) bitsLt_bf16_f32)
      (shapeCast S2048x256 (v69 : FVec Ideal S2048x256 .bf16) shapeCasts_S2048x256_S2048x256) (constant (F := Ideal) S256x256 .f32 0x00000000#32) := rfl

/-- The second result's block at (p, j): the mixture of the code vectors under the softmax of the perturbed row p. -/
theorem mix_pay (v34 v37 : FVec Ideal S256x2048 .f32) (v69 : Vec Ideal S2048x256 .bf16) (p j : Fin 256) :
    k1_pay2 v34 v37 v69 (ix2 p j)
      = VqRow.mix (VqRow.softmax (fun k => v34 (ix2 p k) + VqRow.gumbelOuter (v37 (ix2 p k))))
          (fun k j => v69 (ix2 k j)) j := by
  rw [k1_pay2_eq, RowOps.matmul_apply dot_S256x2048_S2048x256_S256x256_1_0_0_1_n_n rfl none _ _ p j, shapeCast_self]
  unfold VqRow.mix
  refine Finset.sum_congr rfl fun k _ => ?_
  rw [truncf_apply, softBlk_apply]
  refine congrArg (· * _) ?_
  exact congrArg (fun y => VqRow.softmax y k) (funext fun k' => pertBlk_apply v34 v37 p k')

end Cert.KernelIdeal.KRead

end
-- ==== Proof.Bridge.lean ====
/-
  One entry of the quantisation kernel's two result blocks against the same entry of the reference's two results. The
  kernel works on a block of 256 rows; suppose row p of its block of activations is row r of the whole array H, row p
  of its block of samples is row r of the whole array U, its four row vectors are the column means of H, the reciprocal
  standard deviations of H, the scale γ and the shift β, its row of code norms is the squared norms of the code book E,
  and its two copies of the code book are E and E transposed. Then both sides are the same row computation on the same
  numbers: the normalised row, its negative squared distances to the 2048 codes, their softmax (the first result at
  (r, k)); and the softmax of the distances perturbed by the Gumbel term of the samples, mixed with the code book (the
  second result at (r, j)). Nothing is assumed finite.
-/
import proofs.«145537_j65034394796697_1_alg».proof.Proof.KRead1
import proofs.«145537_j65034394796697_1_alg».proof.Proof.RefRead

noncomputable section

open scoped BigOperators

namespace Cert.Bridge

open Cert.KernelIdeal Cert.KernelIdeal.Gen Cert.KernelIdeal.KRead Cert.ReferenceIdeal.RefFns Cert.ReferenceIdeal.RefRead
  Idealize.ShloMosaic Idealize.ShloMosaic.TcCoe Idealize.ShloMosaic.ValueIdx

/-- The normalised block's row p is the reference's normalised row r. -/
theorem norm_entry
    (x0 : Vec Ideal S256x256 .f32) (x2 x3 x4 x5 : Vec Ideal S1x256 .f32)
    (H : FVec Ideal Cert.ReferenceIdeal.S8192x256 .f32) (γ β : FVec Ideal Cert.ReferenceIdeal.S256 .f32)
    (p : Fin 256) (r : Fin 8192)
    (h0 : ∀ j : Fin 256, x0 (ix2 p j) = H (ix2 r j))
    (h2 : ∀ j : Fin 256, x2 (ix2 (0 : Fin 1) j) = meanOf H (ix1 j))
    (h3 : ∀ j : Fin 256, x3 (ix2 (0 : Fin 1) j) = istdOf H (ix1 j))
    (h4 : ∀ j : Fin 256, x4 (ix2 (0 : Fin 1) j) = γ (ix1 j))
    (h5 : ∀ j : Fin 256, x5 (ix2 (0 : Fin 1) j) = β (ix1 j))
    (j : Fin 256) :
    normBlk x0 x2 x3 x4 x5 (ix2 p j) = normedOf H γ β (ix2 r j) := by
  rw [normBlk_apply]
  unfold normedOf
  rw [normOf_apply]
  simp only [h0, h2, h3, h4, h5]

/-- The block's negative squared distances in row p are the reference's in row r. -/
theorem logit_entry
    (x0 : Vec Ideal S256x256 .f32) (x2 x3 x4 x5 : Vec Ideal S1x256 .f32) (x6 : Vec Ideal S1x2048 .f32)
    (x8 : Vec Ideal S256x2048 .bf16)
    (H : FVec Ideal Cert.ReferenceIdeal.S8192x256 .f32) (γ β : FVec Ideal Cert.ReferenceIdeal.S256 .f32)
    (E : FVec Ideal Cert.ReferenceIdeal.S2048x256 .f32)
    (p : Fin 256) (r : Fin 8192)
    (h0 : ∀ j : Fin 256, x0 (ix2 p j) = H (ix2 r j))
    (h2 : ∀ j : Fin 256, x2 (ix2 (0 : Fin 1) j) = meanOf H (ix1 j))
    (h3 : ∀ j : Fin 256, x3 (ix2 (0 : Fin 1) j) = istdOf H (ix1 j))
    (h4 : ∀ j : Fin 256, x4 (ix2 (0 : Fin 1) j) = γ (ix1 j))
    (h5 : ∀ j : Fin 256, x5 (ix2 (0 : Fin 1) j) = β (ix1 j))
    (h6 : ∀ k : Fin 2048, x6 (ix2 (0 : Fin 1) k) = codeNormsOf E (ix1 k))
    (h8 : ∀ (j : Fin 256) (k : Fin 2048), x8 (ix2 j k) = E (ix2 k j))
    (k : Fin 2048) :
    k1_pay3 x0 x2 x3 x4 x5 x8 x6 (ix2 p k) = logitsOf (normedOf H γ β) E (ix2 r k) := by
  rw [k1_pay3_eq, logitBlk_apply, logitsOf_apply]
  have hn : (fun j : Fin 256 => normBlk x0 x2 x3 x4 x5 (ix2 p j)) = fun j => normedOf H γ β (ix2 r j) :=
    funext fun j => norm_entry x0 x2 x3 x4 x5 H γ β p r h0 h2 h3 h4 h5 j
  have hE : (fun (k : Fin 2048) (j : Fin 256) => x8 (ix2 j k)) = fun k j => E (ix2 k j) :=
    funext fun k => funext fun j => h8 j k
  have he : (fun k : Fin 2048 => x6 (ix2 (0 : Fin 1) k)) = fun k => codeNormsOf E (ix1 k) := funext h6
  rw [hn, hE, he]

/-- The first result: the block's entry y, in a row that is row r of the whole, is the reference's entry (r, y₁). -/
theorem entry_probs
    (x0 : Vec Ideal S256x256 .f32) (x2 x3 x4 x5 : Vec Ideal S1x256 .f32) (x6 : Vec Ideal S1x2048 .f32) (x8 : Vec Ideal S256x2048 .bf16)
    (H : FVec Ideal Cert.ReferenceIdeal.S8192x256 .f32) (γ β : FVec Ideal Cert.ReferenceIdeal.S256 .f32) (E : FVec Ideal Cert.ReferenceIdeal.S2048x256 .f32)
    (y : S256x2048.Idx) (r : Fin 8192)
    (h0 : ∀ j : Fin 256, x0 (ix2 (y 0) j) = H (ix2 r j))
    (h2 : ∀ j : Fin 256, x2 (ix2 (0 : Fin 1) j) = meanOf H (ix1 j))
    (h3 : ∀ j : Fin 256, x3 (ix2 (0 : Fin 1) j) = istdOf H (ix1 j))
    (h4 : ∀ j : Fin 256, x4 (ix2 (0 : Fin 1) j) = γ (ix1 j))
    (h5 : ∀ j : Fin 256, x5 (ix2 (0 : Fin 1) j) = β (ix1 j))
    (h6 : ∀ k : Fin 2048, x6 (ix2 (0 : Fin 1) k) = codeNormsOf E (ix1 k))
    (h8 : ∀ (j : Fin 256) (k : Fin 2048), x8 (ix2 j k) = E (ix2 k j)) :
    k1_pay1 (k1_pay3 x0 x2 x3 x4 x5 x8 x6) y = probsOf H γ β E (ix2 r (y 1)) := by
  obtain ⟨p, q, rfl⟩ : ∃ (p : Fin 256) (q : Fin 2048), y = ix2 p q := ⟨y 0, y 1, eq_ix2 y⟩
  have h0' : ∀ j : Fin 256, x0 (ix2 p j) = H (ix2 r j) := h0
  show k1_pay1 (k1_pay3 x0 x2 x3 x4 x5 x8 x6) (ix2 p q) = probsOf H γ β E (ix2 r q)
  rw [probs_pay]
  unfold probsOf
  rw [softmaxOf_apply]
  exact congrArg (fun f => VqRow.softmax f q)
    (funext fun k => logit_entry x0 x2 x3 x4 x5 x6 x8 H γ β E p r h0' h2 h3 h4 h5 h6 h8 k)

/-- The second result: the block's entry y, in a row that is row r of the whole, is the reference's entry (r, y₁). -/
theorem entry_mix
    (x0 : Vec Ideal S256x256 .f32) (x1 : Vec Ideal S256x2048 .f32) (x2 x3 x4 x5 : Vec Ideal S1x256 .f32) (x6 : Vec Ideal S1x2048 .f32)
    (x7 : Vec Ideal S2048x256 .bf16) (x8 : Vec Ideal S256x2048 .bf16)
    (H : FVec Ideal Cert.ReferenceIdeal.S8192x256 .f32) (U : FVec Ideal Cert.ReferenceIdeal.S8192x2048 .f32)
    (γ β : FVec Ideal Cert.ReferenceIdeal.S256 .f32) (E : FVec Ideal Cert.ReferenceIdeal.S2048x256 .f32)
    (y : S256x256.Idx) (r : Fin 8192)
    (h0 : ∀ j : Fin 256, x0 (ix2 (y 0) j) = H (ix2 r j))
    (h1 : ∀ k : Fin 2048, x1 (ix2 (y 0) k) = U (ix2 r k))
    (h2 : ∀ j : Fin 256, x2 (ix2 (0 : Fin 1) j) = meanOf H (ix1 j))
    (h3 : ∀ j : Fin 256, x3 (ix2 (0 : Fin 1) j) = istdOf H (ix1 j))
    (h4 : ∀ j : Fin 256, x4 (ix2 (0 : Fin 1) j) = γ (ix1 j))
    (h5 : ∀ j : Fin 256, x5 (ix2 (0 : Fin 1) j) = β (ix1 j))
    (h6 : ∀ k : Fin 2048, x6 (ix2 (0 : Fin 1) k) = codeNormsOf E (ix1 k))
    (h8 : ∀ (j : Fin 256) (k : Fin 2048), x8 (ix2 j k) = E (ix2 k j))
    (h7 : ∀ (k : Fin 2048) (j : Fin 256), x7 (ix2 k j) = E (ix2 k j)) :
    k1_pay2 (k1_pay3 x0 x2 x3 x4 x5 x8 x6) (k1_pay4 x1) x7 y = mixedOf H U γ β E (ix2 r (y 1)) := by
  obtain ⟨p, j, rfl⟩ : ∃ (p : Fin 256) (j : Fin 256), y = ix2 p j := ⟨y 0, y 1, eq_ix2 y⟩
  have h0' : ∀ j : Fin 256, x0 (ix2 p j) = H (ix2 r j) := h0
  have h1' : ∀ k : Fin 2048, x1 (ix2 p k) = U (ix2 r k) := h1
  show k1_pay2 (k1_pay3 x0 x2 x3 x4 x5 x8 x6) (k1_pay4 x1) x7 (ix2 p j) = mixedOf H U γ β E (ix2 r j)
  rw [mix_pay]
  unfold mixedOf
  rw [mixOf_apply]
  have hw : VqRow.softmax (fun k : Fin 2048 =>
        k1_pay3 x0 x2 x3 x4 x5 x8 x6 (ix2 p k) + VqRow.gumbelOuter (k1_pay4 x1 (ix2 p k)))
      = fun k => softmaxOf (perturbedOf (logitsOf (normedOf H γ β) E) U) (ix2 r k) := by
    funext k
    rw [softmaxOf_apply]
    refine congrArg (fun f => VqRow.softmax f k) (funext fun k' => ?_)
    rw [perturbedOf_apply, u_pay, h1', logit_entry x0 x2 x3 x4 x5 x6 x8 H γ β E p r h0' h2 h3 h4 h5 h6 h8 k']
    rfl
  have hE : (fun (k : Fin 2048) (j : Fin 256) => x7 (ix2 k j)) = fun k j => E (ix2 k j) :=
    funext fun k => funext fun j => h7 k j
  rw [hw, hE]

end Cert.Bridge

end
-- ==== Proof.KBlocks1.lean ====
/-
  The two result arrays after the quantisation region. The grid has 32 points; point t reads rows 256·t … 256·t + 255 of
  the affine layer's output h and of the uniform samples, and — whole, at every point — the column statistics of h, the
  scale and the shift as rows, the code norms as a row, the code book and its transpose; it writes back rows
  256·t … 256·t + 255 of both results. An entry (p, k) of a written block is the reference's function of the whole
  arrays at (256·t + p, k), because every operation of the body acts on one row at a time and the row statistics are the
  same arrays on both sides. The 32 blocks tile the 8192 rows, so each result array ends holding the reference's function
  whole; with the affine layer's array from the first region this gives the kernel's run in closed form.
-/
import proofs.«145537_j65034394796697_1_alg».proof.Proof.Gen.KernelIdeal.Frame
import proofs.«145537_j65034394796697_1_alg».proof.Proof.KRun
import proofs.«145537_j65034394796697_1_alg».proof.Proof.KHost
import proofs.«145537_j65034394796697_1_alg».proof.Proof.KBlocks0
import proofs.«145537_j65034394796697_1_alg».proof.Proof.KRead1
import proofs.«145537_j65034394796697_1_alg».proof.Proof.RefRead
import proofs.«145537_j65034394796697_1_alg».proof.Proof.Bridge
import Idealize.ShloMosaic.Lib.Pipeline.Value

set_option maxRecDepth 16384

noncomputable section

open scoped BigOperators

namespace Cert.KernelIdeal.KBlocks1

open Cert.KernelIdeal Cert.KernelIdeal.Gen Cert.KernelIdeal.KHost Cert.KernelIdeal.KRead
open Idealize.ShloMosaic Idealize.ShloMosaic.TcCoe Idealize.SL.Sem Idealize.ShloMosaic.ValueIdx
open Idealize.ShloMosaic.Pipeline (Dat)
open Cert.ReferenceIdeal.RefFns (linOf meanOf istdOf codeNormsOf probsOf mixedOf)
open Cert.KernelIdeal.KBlocks0 (hz vec_row_apply final_h)

variable (m : (ℓ : Loc nD τ sig) → Buf (Elt Ideal) ℓ) (ρ : Dev nD → PrngReg)

/-- The block indices over the grid: h, the samples and both results move one block of rows per point; the rest stay. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0
    ∧ win1_10.index t (0 : Fin 2) = t.val
    ∧ win1_10.index t (1 : Fin 2) = 0 :=
  (by decide +kernel : ∀ t : Fin grid1.N, _)

/-- A matrix transposed, read at an entry: entry (q, p) of the transpose is entry (p, q). -/
theorem transpose_swap_apply {α : Type} {a b : Nat} (h : (⟨2, ![a, b]⟩ : Shape).Transposes [1, 0] ⟨2, ![b, a]⟩)
    (x : (⟨2, ![a, b]⟩ : Shape).Idx → α) (p : Fin a) (q : Fin b) :
    transpose ⟨2, ![b, a]⟩ [1, 0] x h (ix2 q p) = x (ix2 p q) := by
  refine transpose_apply [1, 0] x h (ix2 q p) (ix2 p q) fun bb => ?_
  match bb with
  | ⟨0, _⟩ => rfl
  | ⟨1, _⟩ => rfl

/-! ## The input blocks as pieces of their arrays -/

/-- Window 0's block at point t is rows 256·t … of its array. -/
theorem blk0 (c : Dev nD) (t : Fin cfg1.N) (j : S256x256.Idx) (i : S8192x256.Idx)
    (h0 : (i 0).val = t.val * 256 + (j 0).val) (h1 : (i 1).val = (j 1).val) :
    (iblk1 (V5 m ρ) c 0 t : Vec Ideal S256x256 .f32) j = (V5 m ρ c main_v1 : S8192x256.Idx → Elt Ideal .f32) i := by
  obtain ⟨f0, f1, f2, f3, f4, f5, f6, f7, f8, f9, f10, f11, f12, f13, f14, f15, f16, f17, f18, f19, f20, f21⟩ := idx1 t
  unfold iblk1
  rw [View.read_apply]
  show V5 m ρ c main_v1 _ = _
  refine congrArg _ ?_
  funext a; apply Fin.ext
  match a with
  | ⟨0, _⟩ => show win1_0.index t (0 : Fin 2) * 256 + 1 * (j 0).val = (i 0).val; rw [f0, h0]; omega
  | ⟨1, _⟩ => show win1_0.index t (1 : Fin 2) * 256 + 1 * (j 1).val = (i 1).val; rw [f1, h1]; omega

/-- Window 1's block at point t is rows 256·t … of its array. -/
theorem blk1 (c : Dev nD) (t : Fin cfg1.N) (j : S256x2048.Idx) (i : S8192x2048.Idx)
    (h0 : (i 0).val = t.val * 256 + (j 0).val) (h1 : (i 1).val = (j 1).val) :
    (iblk1 (V5 m ρ) c 1 t : Vec Ideal S256x2048 .f32) j = (V5 m ρ c main_arg1 : S8192x2048.Idx → Elt Ideal .f32) i := by
  obtain ⟨f0, f1, f2, f3, f4, f5, f6, f7, f8, f9, f10, f11, f12, f13, f14, f15, f16, f17, f18, f19, f20, f21⟩ := idx1 t
  unfold iblk1
  rw [View.read_apply]
  show V5 m ρ c main_arg1 _ = _
  refine congrArg _ ?_
  funext a; apply Fin.ext
  match a with
  | ⟨0, _⟩ => show win1_1.index t (0 : Fin 2) * 256 + 1 * (j 0).val = (i 0).val; rw [f2, h0]; omega
  | ⟨1, _⟩ => show win1_1.index t (1 : Fin 2) * 2048 + 1 * (j 1).val = (i 1).val; rw [f3, h1]; omega

/-- Window 2's block at every point is its whole array. -/
theorem blk2 (c : Dev nD) (t : Fin cfg1.N) (j : S1x256.Idx) :
    (iblk1 (V5 m ρ) c 2 t : Vec Ideal S1x256 .f32) j = (V5 m ρ c main_v9 : S1x256.Idx → Elt Ideal .f32) j := by
  obtain ⟨f0, f1, f2, f3, f4, f5, f6, f7, f8, f9, f10, f11, f12, f13, f14, f15, f16, f17, f18, f19, f20, f21⟩ := idx1 t
  unfold iblk1
  rw [View.read_apply]
  show V5 m ρ c main_v9 _ = _
  refine congrArg _ ?_
  funext a; apply Fin.ext
  match a with
  | ⟨0, _⟩ => show win1_2.index t (0 : Fin 2) * 1 + 1 * (j 0).val = (j 0).val; rw [f4]; omega
  | ⟨1, _⟩ => show win1_2.index t (1 : Fin 2) * 256 + 1 * (j 1).val = (j 1).val; rw [f5]; omega

/-- Window 3's block at every point is its whole array. -/
theorem blk3 (c : Dev nD) (t : Fin cfg1.N) (j : S1x256.Idx) :
    (iblk1 (V5 m ρ) c 3 t : Vec Ideal S1x256 .f32) j = (V5 m ρ c main_v10 : S1x256.Idx → Elt Ideal .f32) j := by
  obtain ⟨f0, f1, f2, f3, f4, f5, f6, f7, f8, f9, f10, f11, f12, f13, f14, f15, f16, f17, f18, f19, f20, f21⟩ := idx1 t
  unfold iblk1
  rw [View.read_apply]
  show V5 m ρ c main_v10 _ = _
  refine congrArg _ ?_
  funext a; apply Fin.ext
  match a with
  | ⟨0, _⟩ => show win1_3.index t (0 : Fin 2) * 1 + 1 * (j 0).val = (j 0).val; rw [f6]; omega
  | ⟨1, _⟩ => show win1_3.index t (1 : Fin 2) * 256 + 1 * (j 1).val = (j 1).val; rw [f7]; omega

/-- Window 4's block at every point is its whole array. -/
theorem blk4 (c : Dev nD) (t : Fin cfg1.N) (j : S1x256.Idx) :
    (iblk1 (V5 m ρ) c 4 t : Vec Ideal S1x256 .f32) j = (V5 m ρ c main_v11 : S1x256.Idx → Elt Ideal .f32) j := by
  obtain ⟨f0, f1, f2, f3, f4, f5, f6, f7, f8, f9, f10, f11, f12, f13, f14, f15, f16, f17, f18, f19, f20, f21⟩ := idx1 t
  unfold iblk1
  rw [View.read_apply]
  show V5 m ρ c main_v11 _ = _
  refine congrArg _ ?_
  funext a; apply Fin.ext
  match a with
  | ⟨0, _⟩ => show win1_4.index t (0 : Fin 2) * 1 + 1 * (j 0).val = (j 0).val; rw [f8]; omega
  | ⟨1, _⟩ => show win1_4.index t (1 : Fin 2) * 256 + 1 * (j 1).val = (j 1).val; rw [f9]; omega

/-- Window 5's block at every point is its whole array. -/
theorem blk5 (c : Dev nD) (t : Fin cfg1.N) (j : S1x256.Idx) :
    (iblk1 (V5 m ρ) c 5 t : Vec Ideal S1x256 .f32) j = (V5 m ρ c main_v12 : S1x256.Idx → Elt Ideal .f32) j := by
  obtain ⟨f0, f1, f2, f3, f4, f5, f6, f7, f8, f9, f10, f11, f12, f13, f14, f15, f16, f17, f18, f19, f20, f21⟩ := idx1 t
  unfold iblk1
  rw [View.read_apply]
  show V5 m ρ c main_v12 _ = _
  refine congrArg _ ?_
  funext a; apply Fin.ext
  match a with
  | ⟨0, _⟩ => show win1_5.index t (0 : Fin 2) * 1 + 1 * (j 0).val = (j 0).val; rw [f10]; omega
  | ⟨1, _⟩ => show win1_5.index t (1 : Fin 2) * 256 + 1 * (j 1).val = (j 1).val; rw [f11]; omega

/-- Window 6's block at every point is its whole array. -/
theorem blk6 (c : Dev nD) (t : Fin cfg1.N) (j : S1x2048.Idx) :
    (iblk1 (V5 m ρ) c 6 t : Vec Ideal S1x2048 .f32) j = (V5 m ρ c main_v15 : S1x2048.Idx → Elt Ideal .f32) j := by
  obtain ⟨f0, f1, f2, f3, f4, f5, f6, f7, f8, f9, f10, f11, f12, f13, f14, f15, f16, f17, f18, f19, f20, f21⟩ := idx1 t
  unfold iblk1
  rw [View.read_apply]
  show V5 m ρ c main_v15 _ = _
  refine congrArg _ ?_
  funext a; apply Fin.ext
  match a with
  | ⟨0, _⟩ => show win1_6.index t (0 : Fin 2) * 1 + 1 * (j 0).val = (j 0).val; rw [f12]; omega
  | ⟨1, _⟩ => show win1_6.index t (1 : Fin 2) * 2048 + 1 * (j 1).val = (j 1).val; rw [f13]; omega

/-- Window 7's block at every point is its whole array. -/
theorem blk7 (c : Dev nD) (t : Fin cfg1.N) (j : S2048x256.Idx) :
    (iblk1 (V5 m ρ) c 7 t : Vec Ideal S2048x256 .bf16) j = (V5 m ρ c main_v16 : S2048x256.Idx → Elt Ideal .bf16) j := by
  obtain ⟨f0, f1, f2, f3, f4, f5, f6, f7, f8, f9, f10, f11, f12, f13, f14, f15, f16, f17, f18, f19, f20, f21⟩ := idx1 t
  unfold iblk1
  rw [View.read_apply]
  show V5 m ρ c main_v16 _ = _
  refine congrArg _ ?_
  funext a; apply Fin.ext
  match a with
  | ⟨0, _⟩ => show win1_7.index t (0 : Fin 2) * 2048 + 1 * (j 0).val = (j 0).val; rw [f14]; omega
  | ⟨1, _⟩ => show win1_7.index t (1 : Fin 2) * 256 + 1 * (j 1).val = (j 1).val; rw [f15]; omega

/-- Window 8's block at every point is its whole array. -/
theorem blk8 (c : Dev nD) (t : Fin cfg1.N) (j : S256x2048.Idx) :
    (iblk1 (V5 m ρ) c 8 t : Vec Ideal S256x2048 .bf16) j = (V5 m ρ c main_v18 : S256x2048.Idx → Elt Ideal .bf16) j := by
  obtain ⟨f0, f1, f2, f3, f4, f5, f6, f7, f8, f9, f10, f11, f12, f13, f14, f15, f16, f17, f18, f19, f20, f21⟩ := idx1 t
  unfold iblk1
  rw [View.read_apply]
  show V5 m ρ c main_v18 _ = _
  refine congrArg _ ?_
  funext a; apply Fin.ext
  match a with
  | ⟨0, _⟩ => show win1_8.index t (0 : Fin 2) * 256 + 1 * (j 0).val = (j 0).val; rw [f16]; omega
  | ⟨1, _⟩ => show win1_8.index t (1 : Fin 2) * 2048 + 1 * (j 1).val = (j 1).val; rw [f17]; omega

/-! ## The input blocks at an entry, in the launch memory's terms -/

theorem in_h (c : Dev nD) (t : Fin cfg1.N) (p j : Fin 256) (r : Fin 8192) (hr : r.val = t.val * 256 + p.val) :
    (iblk1 (V5 m ρ) c 0 t : Vec Ideal S256x256 .f32) (ix2 p j) = (V2 m ρ c main_v1) (ix2 r j) :=
  (blk0 m ρ c t (ix2 p j) (ix2 r j) hr rfl).trans (by rw [V5_h])

theorem in_u (c : Dev nD) (t : Fin cfg1.N) (p : Fin 256) (k : Fin 2048) (r : Fin 8192) (hr : r.val = t.val * 256 + p.val) :
    (iblk1 (V5 m ρ) c 1 t : Vec Ideal S256x2048 .f32) (ix2 p k) = (m ((c : Thread nD τ).loc main_arg1)) (ix2 r k) :=
  (blk1 m ρ c t (ix2 p k) (ix2 r k) hr rfl).trans (by rw [V5_arg1])

theorem in_mu (c : Dev nD) (t : Fin cfg1.N) (j : Fin 256) :
    (iblk1 (V5 m ρ) c 2 t : Vec Ideal S1x256 .f32) (ix2 (0 : Fin 1) j) = meanOf (F := Ideal) (V2 m ρ c main_v1) (ix1 j) :=
  (blk2 m ρ c t _).trans (by rw [V5_mu]; exact vec_row_apply _ _ (0 : Fin 1) j)

theorem in_istd (c : Dev nD) (t : Fin cfg1.N) (j : Fin 256) :
    (iblk1 (V5 m ρ) c 3 t : Vec Ideal S1x256 .f32) (ix2 (0 : Fin 1) j) = istdOf (F := Ideal) (V2 m ρ c main_v1) (ix1 j) :=
  (blk3 m ρ c t _).trans (by rw [V5_istd]; exact vec_row_apply _ _ (0 : Fin 1) j)

theorem in_gamma (c : Dev nD) (t : Fin cfg1.N) (j : Fin 256) :
    (iblk1 (V5 m ρ) c 4 t : Vec Ideal S1x256 .f32) (ix2 (0 : Fin 1) j) = (m ((c : Thread nD τ).loc main_arg4)) (ix1 j) :=
  (blk4 m ρ c t _).trans (by rw [V5_gamma]; exact vec_row_apply _ _ (0 : Fin 1) j)

theorem in_beta (c : Dev nD) (t : Fin cfg1.N) (j : Fin 256) :
    (iblk1 (V5 m ρ) c 5 t : Vec Ideal S1x256 .f32) (ix2 (0 : Fin 1) j) = (m ((c : Thread nD τ).loc main_arg5)) (ix1 j) :=
  (blk5 m ρ c t _).trans (by rw [V5_beta]; exact vec_row_apply _ _ (0 : Fin 1) j)

theorem in_e2 (c : Dev nD) (t : Fin cfg1.N) (k : Fin 2048) :
    (iblk1 (V5 m ρ) c 6 t : Vec Ideal S1x2048 .f32) (ix2 (0 : Fin 1) k) = codeNormsOf (F := Ideal) (m ((c : Thread nD τ).loc main_arg6)) (ix1 k) :=
  (blk6 m ρ c t _).trans (by rw [V5_e2]; exact vec_row_apply _ _ (0 : Fin 1) k)

theorem in_E (c : Dev nD) (t : Fin cfg1.N) (k : Fin 2048) (j : Fin 256) :
    (iblk1 (V5 m ρ) c 7 t : Vec Ideal S2048x256 .bf16) (ix2 k j) = (m ((c : Thread nD τ).loc main_arg6)) (ix2 k j) :=
  (blk7 m ρ c t _).trans (by rw [V5_E]; rfl)

theorem in_ET (c : Dev nD) (t : Fin cfg1.N) (j : Fin 256) (k : Fin 2048) :
    (iblk1 (V5 m ρ) c 8 t : Vec Ideal S256x2048 .bf16) (ix2 j k) = (m ((c : Thread nD τ).loc main_arg6)) (ix2 k j) :=
  (blk8 m ρ c t _).trans (by rw [V5_ET]; exact transpose_swap_apply _ _ k j)

/-! ## What a point writes back -/

/-- Point t's write-back of the first result is block t of the softmax of the distances. -/
theorem flushed_probs (c : Dev nD) (t : Fin cfg1.N) :
    (dat1 (V5 m ρ) c).flushed 9 t = ((cfg1.win 9).blk t).view.read (Elt Ideal)
      (probsOf (F := Ideal) (V2 m ρ c main_v1) (m ((c : Thread nD τ).loc main_arg4)) (m ((c : Thread nD τ).loc main_arg5)) (m ((c : Thread nD τ).loc main_arg6))) := by
  show (cfg1.win 9).cut (grid1.coords t) ((dat1 (V5 m ρ) c).after 9 t) = _
  rw [after1_9]
  unfold out1_9
  rw [View.canon_unit_zero hz]
  simp only [View.ld_unit_zero (S := S256x256) hz, View.ld_unit_zero (S := S1x256) hz,
    View.ld_unit_zero (S := S256x2048) hz, View.ld_unit_zero (S := S1x2048) hz]
  obtain ⟨f0, f1, f2, f3, f4, f5, f6, f7, f8, f9, f10, f11, f12, f13, f14, f15, f16, f17, f18, f19, f20, f21⟩ := idx1 t
  have ht : t.val < 32 := Nat.lt_of_lt_of_eq t.isLt N_1
  funext y
  have hy0 : (y 0).val < 256 := (y 0).isLt
  rw [View.read_apply]
  refine (Cert.Bridge.entry_probs _ _ _ _ _ _ _ _ _ _ _ y ⟨t.val * 256 + (y 0).val, by omega⟩
    (fun j => in_h m ρ c t _ j _ rfl) (fun j => in_mu m ρ c t j) (fun j => in_istd m ρ c t j)
    (fun j => in_gamma m ρ c t j) (fun j => in_beta m ρ c t j) (fun k => in_e2 m ρ c t k)
    (fun j k => in_ET m ρ c t j k)).trans (congrArg _ ?_)
  funext a; apply Fin.ext
  match a with
  | ⟨0, _⟩ => show t.val * 256 + (y 0).val = win1_9.index t (0 : Fin 2) * 256 + 1 * (y 0).val; rw [f18]; omega
  | ⟨1, _⟩ => show (y 1).val = win1_9.index t (1 : Fin 2) * 2048 + 1 * (y 1).val; rw [f19]; omega

/-- Point t's write-back of the second result is block t of the mixture under the softmax of the perturbed distances. -/
theorem flushed_mix (c : Dev nD) (t : Fin cfg1.N) :
    (dat1 (V5 m ρ) c).flushed 10 t = ((cfg1.win 10).blk t).view.read (Elt Ideal)
      (mixedOf (F := Ideal) (V2 m ρ c main_v1) (m ((c : Thread nD τ).loc main_arg1)) (m ((c : Thread nD τ).loc main_arg4)) (m ((c : Thread nD τ).loc main_arg5)) (m ((c : Thread nD τ).loc main_arg6))) := by
  show (cfg1.win 10).cut (grid1.coords t) ((dat1 (V5 m ρ) c).after 10 t) = _
  rw [after1_10]
  unfold out1_10
  rw [View.canon_unit_zero hz]
  simp only [View.ld_unit_zero (S := S256x256) hz, View.ld_unit_zero (S := S1x256) hz,
    View.ld_unit_zero (S := S256x2048) hz, View.ld_unit_zero (S := S1x2048) hz, View.ld_unit_zero (S := S2048x256) hz]
  obtain ⟨f0, f1, f2, f3, f4, f5, f6, f7, f8, f9, f10, f11, f12, f13, f14, f15, f16, f17, f18, f19, f20, f21⟩ := idx1 t
  have ht : t.val < 32 := Nat.lt_of_lt_of_eq t.isLt N_1
  funext y
  have hy0 : (y 0).val < 256 := (y 0).isLt
  rw [View.read_apply]
  refine (Cert.Bridge.entry_mix _ _ _ _ _ _ _ _ _ _ _ _ _ _ y ⟨t.val * 256 + (y 0).val, by omega⟩
    (fun j => in_h m ρ c t _ j _ rfl) (fun k => in_u m ρ c t _ k _ rfl) (fun j => in_mu m ρ c t j)
    (fun j => in_istd m ρ c t j) (fun j => in_gamma m ρ c t j) (fun j => in_beta m ρ c t j)
    (fun k => in_e2 m ρ c t k) (fun j k => in_ET m ρ c t j k) (fun k j => in_E m ρ c t k j)).trans (congrArg _ ?_)
  funext a; apply Fin.ext
  match a with
  | ⟨0, _⟩ => show t.val * 256 + (y 0).val = win1_10.index t (0 : Fin 2) * 256 + 1 * (y 0).val; rw [f20]; omega
  | ⟨1, _⟩ => show (y 1).val = win1_10.index t (1 : Fin 2) * 256 + 1 * (y 1).val; rw [f21]; omega

/-! ## The covers -/

theorem mem_blk_probs (t : Fin cfg1.N) (i : S8192x2048.Idx) :
    i ∈ ((cfg1.win 9).blk t).view.set ↔ ∀ a : Fin 2, win1_9.index t a * S256x2048.size a ≤ (i a).val
      ∧ (i a).val < win1_9.index t a * S256x2048.size a + S256x2048.size a := by
  show i ∈ ((View.whole main_v19_0).slice (win1_9.rect t)).set ↔ _
  rw [View.set_slice_whole, Rect.mem_set_unit]
  exact Iff.rfl

theorem mem_blk_mix (t : Fin cfg1.N) (i : S8192x256.Idx) :
    i ∈ ((cfg1.win 10).blk t).view.set ↔ ∀ a : Fin 2, win1_10.index t a * S256x256.size a ≤ (i a).val
      ∧ (i a).val < win1_10.index t a * S256x256.size a + S256x256.size a := by
  show i ∈ ((View.whole main_v19_1).slice (win1_10.rect t)).set ↔ _
  rw [View.set_slice_whole, Rect.mem_set_unit]
  exact Iff.rfl

/-- The 32 blocks of the first result tile its array: row r is in block r / 256. -/
theorem cover_probs (i : S8192x2048.Idx) :
    ∃ t : Fin cfg1.N, (cfg1.win 9).flush t = true ∧ i ∈ ((cfg1.win 9).blk t).view.set := by
  have hi0 : (i 0).val < 8192 := (i 0).isLt
  have hi1 : (i 1).val < 2048 := (i 1).isLt
  let t : Fin cfg1.N := ⟨(i 0).val / 256, by rw [show cfg1.N = 32 from N_1]; omega⟩
  obtain ⟨f0, f1, f2, f3, f4, f5, f6, f7, f8, f9, f10, f11, f12, f13, f14, f15, f16, f17, f18, f19, f20, f21⟩ := idx1 t
  have e : win1_9.index t (0 : Fin 2) = (i 0).val / 256 := f18
  refine ⟨t, flush1_9 t, ?_⟩
  rw [mem_blk_probs]
  intro a
  match a with
  | ⟨0, _⟩ => show win1_9.index t (0 : Fin 2) * 256 ≤ (i 0).val ∧ (i 0).val < win1_9.index t (0 : Fin 2) * 256 + 256; rw [e]; omega
  | ⟨1, _⟩ => show win1_9.index t (1 : Fin 2) * 2048 ≤ (i 1).val ∧ (i 1).val < win1_9.index t (1 : Fin 2) * 2048 + 2048; rw [f19]; omega

/-- The 32 blocks of the second result tile its array. -/
theorem cover_mix (i : S8192x256.Idx) :
    ∃ t : Fin cfg1.N, (cfg1.win 10).flush t = true ∧ i ∈ ((cfg1.win 10).blk t).view.set := by
  have hi0 : (i 0).val < 8192 := (i 0).isLt
  have hi1 : (i 1).val < 256 := (i 1).isLt
  let t : Fin cfg1.N := ⟨(i 0).val / 256, by rw [show cfg1.N = 32 from N_1]; omega⟩
  obtain ⟨f0, f1, f2, f3, f4, f5, f6, f7, f8, f9, f10, f11, f12, f13, f14, f15, f16, f17, f18, f19, f20, f21⟩ := idx1 t
  have e : win1_10.index t (0 : Fin 2) = (i 0).val / 256 := f20
  refine ⟨t, flush1_10 t, ?_⟩
  rw [mem_blk_mix]
  intro a
  match a with
  | ⟨0, _⟩ => show win1_10.index t (0 : Fin 2) * 256 ≤ (i 0).val ∧ (i 0).val < win1_10.index t (0 : Fin 2) * 256 + 256; rw [e]; omega
  | ⟨1, _⟩ => show win1_10.index t (1 : Fin 2) * 256 ≤ (i 1).val ∧ (i 1).val < win1_10.index t (1 : Fin 2) * 256 + 256; rw [f21]; omega

/-! ## The result arrays, and the run -/

theorem final_probs (c : Dev nD) : (dat1 (V5 m ρ) c).arrAt 9 cfg1.N = probsOf (F := Ideal) (V2 m ρ c main_v1) (m ((c : Thread nD τ).loc main_arg4)) (m ((c : Thread nD τ).loc main_arg5)) (m ((c : Thread nD τ).loc main_arg6)) :=
  (dat1 (V5 m ρ) c).arrAt_eq_of_cover 9 _ (fun t _ => flushed_probs m ρ c t) cover_probs

theorem final_mix (c : Dev nD) : (dat1 (V5 m ρ) c).arrAt 10 cfg1.N = mixedOf (F := Ideal) (V2 m ρ c main_v1) (m ((c : Thread nD τ).loc main_arg1)) (m ((c : Thread nD τ).loc main_arg4)) (m ((c : Thread nD τ).loc main_arg5)) (m ((c : Thread nD τ).loc main_arg6)) :=
  (dat1 (V5 m ρ) c).arrAt_eq_of_cover 10 _ (fun t _ => flushed_mix m ρ c t) cover_mix

/-- The affine layer's array, as the second region finds it, is x·W + b. -/
theorem h_eq (c : Dev nD) : (V2 m ρ c main_v1) = linOf (F := Ideal) (m ((c : Thread nD τ).loc main_arg0)) (m ((c : Thread nD τ).loc main_arg2)) (m ((c : Thread nD τ).loc main_arg3)) :=
  (V2_h m ρ c).trans (final_h m ρ c)

/-- The first result array at the last boundary. -/
theorem out_probs (c : Dev nD) : W6 m ρ c (Proc.devRef .tc main_v19_0)
    = probsOf (F := Ideal) (linOf (F := Ideal) (m ((c : Thread nD τ).loc main_arg0)) (m ((c : Thread nD τ).loc main_arg2)) (m ((c : Thread nD τ).loc main_arg3))) (m ((c : Thread nD τ).loc main_arg4)) (m ((c : Thread nD τ).loc main_arg5)) (m ((c : Thread nD τ).loc main_arg6)) :=
  (W6_arr m ρ c 9).trans ((final_probs m ρ c).trans (by rw [h_eq]))

/-- The second result array at the last boundary. -/
theorem out_mix (c : Dev nD) : W6 m ρ c (Proc.devRef .tc main_v19_1)
    = mixedOf (F := Ideal) (linOf (F := Ideal) (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) :=
  (W6_arr m ρ c 10).trans ((final_mix m ρ c).trans (by rw [h_eq]))

/-- The idealized kernel's run, read: both results at the reference's functions of the arguments, the arguments unchanged. -/
theorem run : θ_run defs (onTc (τ := τ) (main (F := Ideal))) ⟨m, fun _ => 0, ρ⟩ (fun r => ∀ c : Dev nD,
      r.2.mem ((c.tc : Thread nD τ).loc main_v19_0) = probsOf (F := Ideal) (linOf (F := Ideal) (m ((c : Thread nD τ).loc main_arg0)) (m ((c : Thread nD τ).loc main_arg2)) (m ((c : Thread nD τ).loc main_arg3))) (m ((c : Thread nD τ).loc main_arg4)) (m ((c : Thread nD τ).loc main_arg5)) (m ((c : Thread nD τ).loc main_arg6))
      ∧ r.2.mem ((c.tc : Thread nD τ).loc main_v19_1) = mixedOf (F := Ideal) (linOf (F := Ideal) (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (out_probs m ρ c), (h c).2.1.trans (out_mix m ρ c), (h c).2.2⟩)
    (Cert.KernelIdeal.KRun.run_values m ρ)

end Cert.KernelIdeal.KBlocks1

end
-- ==== Proof.RefRun.lean ====
/-
  The reference program's run. Its host function is a straight line of whole-array operations: the main function's
  own, with the body of the variance function (and, inside it, of the selection function) written out at the place
  of the call, over the buffers that call names. Run in order from any launch contents, the line leaves in the two
  result buffers the softmax of the negative squared distances and the soft assignments of the perturbed distances
  times the code book, as the stage-by-stage functions of the arguments; the arguments themselves are not written.
-/
import proofs.«145537_j65034394796697_1_alg».proof.ReferenceIdeal
import proofs.«145537_j65034394796697_1_alg».proof.Proof.Gen.ReferenceIdeal
import proofs.«145537_j65034394796697_1_alg».proof.Proof.RefFns
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The host function's 109 operations, in order: the affine layer and the column means (10), the variance
    function's 19 with the selection's 3 inside it, then the normalisation, the distances, the perturbation and the
    two softmaxes (77). -/
abbrev ops : List (HloOp τ sig (Elt F)) :=
  [ StableHlo.binary main_arg0 main_arg2 main_v0 ((fun l r => Host.dotGeneral dot_S8192x1024_S1024x256_S8192x256_1_0_0_1_n_n none l r) : (⟨S8192x1024, .f32⟩ : BufTy).Contents (Elt F) → (⟨S1024x256, .f32⟩ : BufTy).Contents (Elt F) → (⟨S8192x256, .f32⟩ : BufTy).Contents (Elt F)),
    StableHlo.unary main_arg3 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S8192x256 ![0, 1] bcast_S1x256_S8192x256_0_1 : (⟨S1x256, .f32⟩ : BufTy).Contents (Elt F) → (⟨S8192x256, .f32⟩ : BufTy).Contents (Elt F)),
    StableHlo.binary main_v0 main_v2 main_v3 (addf : (⟨S8192x256, .f32⟩ : BufTy).Contents (Elt F) → (⟨S8192x256, .f32⟩ : BufTy).Contents (Elt F) → (⟨S8192x256, .f32⟩ : BufTy).Contents (Elt F)),
    StableHlo.nullary main_cst (constant S_ .f32 0x00000000#32),
    StableHlo.binary main_v3 main_cst main_v4 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_0 (constant S_ .f32 0x46000000#32),
    StableHlo.unary main_cst_0 main_v5 (broadcastInDim S256 ![] bcast_S_S256 : (⟨S_, .f32⟩ : BufTy).Contents (Elt F) → (⟨S256, .f32⟩ : BufTy).Contents (Elt F)),
    StableHlo.binary main_v4 main_v5 main_v6 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call0.cst (constant S_ .f32 0x00000000#32),
    StableHlo.TRef.binary (.of main_v3 : StableHlo.TRef sig ⟨S8192x256, .f32⟩) main_call0.cst main_call0.v0 (fun x v => Host.reduceAdd x v reducesTo_S8192x256_S256_d0 h_S_),
    StableHlo.TRef.unary main_call0.v0 main_call0.v1 (broadcastInDim S1x256 ![1] bcast_S256_S1x256_1),
    StableHlo.TRef.nullary main_call0.cst_0 (constant S_ .f32 0x46000000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S8192x256 ![0, 1] bcast_S1x256_S8192x256_0_1),
    StableHlo.TRef.binary (.of main_v3 : StableHlo.TRef sig ⟨S8192x256, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x46000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v6 main_v8 (broadcastInDim S1x256 ![1] bcast_S256_S1x256_1 : (⟨S256, .f32⟩ : BufTy).Contents (Elt F) → (⟨S1x256, .f32⟩ : BufTy).Contents (Elt F)),
    StableHlo.unary main_v8 main_v9 (broadcastInDim S8192x256 ![0, 1] bcast_S1x256_S8192x256_0_1 : (⟨S1x256, .f32⟩ : BufTy).Contents (Elt F) → (⟨S8192x256, .f32⟩ : BufTy).Contents (Elt F)),
    StableHlo.binary main_v3 main_v9 main_v10 (subf : (⟨S8192x256, .f32⟩ : BufTy).Contents (Elt F) → (⟨S8192x256, .f32⟩ : BufTy).Contents (Elt F) → (⟨S8192x256, .f32⟩ : BufTy).Contents (Elt F)),
    StableHlo.nullary main_cst_1 (constant S_ .f32 0x3727C5AC#32),
    StableHlo.unary main_cst_1 main_v11 (broadcastInDim S256 ![] bcast_S_S256 : (⟨S_, .f32⟩ : BufTy).Contents (Elt F) → (⟨S256, .f32⟩ : BufTy).Contents (Elt F)),
    StableHlo.binary main_v7 main_v11 main_v12 (addf : (⟨S256, .f32⟩ : BufTy).Contents (Elt F) → (⟨S256, .f32⟩ : BufTy).Contents (Elt F) → (⟨S256, .f32⟩ : BufTy).Contents (Elt F)),
    StableHlo.unary main_v12 main_v13 (Host.rsqrt : (⟨S256, .f32⟩ : BufTy).Contents (Elt F) → (⟨S256, .f32⟩ : BufTy).Contents (Elt F)),
    StableHlo.unary main_v13 main_v14 (broadcastInDim S1x256 ![1] bcast_S256_S1x256_1 : (⟨S256, .f32⟩ : BufTy).Contents (Elt F) → (⟨S1x256, .f32⟩ : BufTy).Contents (Elt F)),
    StableHlo.unary main_v14 main_v15 (broadcastInDim S8192x256 ![0, 1] bcast_S1x256_S8192x256_0_1 : (⟨S1x256, .f32⟩ : BufTy).Contents (Elt F) → (⟨S8192x256, .f32⟩ : BufTy).Contents (Elt F)),
    StableHlo.binary main_v10 main_v15 main_v16 (mulf : (⟨S8192x256, .f32⟩ : BufTy).Contents (Elt F) → (⟨S8192x256, .f32⟩ : BufTy).Contents (Elt F) → (⟨S8192x256, .f32⟩ : BufTy).Contents (Elt F)),
    StableHlo.unary main_arg4 main_v17 (broadcastInDim S1x256 ![1] bcast_S256_S1x256_1 : (⟨S256, .f32⟩ : BufTy).Contents (Elt F) → (⟨S1x256, .f32⟩ : BufTy).Contents (Elt F)),
    StableHlo.unary main_v17 main_v18 (broadcastInDim S8192x256 ![0, 1] bcast_S1x256_S8192x256_0_1 : (⟨S1x256, .f32⟩ : BufTy).Contents (Elt F) → (⟨S8192x256, .f32⟩ : BufTy).Contents (Elt F)),
    StableHlo.binary main_v16 main_v18 main_v19 (mulf : (⟨S8192x256, .f32⟩ : BufTy).Contents (Elt F) → (⟨S8192x256, .f32⟩ : BufTy).Contents (Elt F) → (⟨S8192x256, .f32⟩ : BufTy).Contents (Elt F)),
    StableHlo.unary main_arg5 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S8192x256 ![0, 1] bcast_S1x256_S8192x256_0_1 : (⟨S1x256, .f32⟩ : BufTy).Contents (Elt F) → (⟨S8192x256, .f32⟩ : BufTy).Contents (Elt F)),
    StableHlo.binary main_v19 main_v21 main_v22 (addf : (⟨S8192x256, .f32⟩ : BufTy).Contents (Elt F) → (⟨S8192x256, .f32⟩ : BufTy).Contents (Elt F) → (⟨S8192x256, .f32⟩ : BufTy).Contents (Elt F)),
    StableHlo.binary main_v22 main_v22 main_v23 (mulf : (⟨S8192x256, .f32⟩ : BufTy).Contents (Elt F) → (⟨S8192x256, .f32⟩ : BufTy).Contents (Elt F) → (⟨S8192x256, .f32⟩ : BufTy).Contents (Elt F)),
    StableHlo.nullary main_cst_2 (constant S_ .f32 0x00000000#32),
    StableHlo.binary main_v23 main_cst_2 main_v24 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v24 main_v25 (broadcastInDim S8192x1 ![0] bcast_S8192_S8192x1_0 : (⟨S8192, .f32⟩ : BufTy).Contents (Elt F) → (⟨S8192x1, .f32⟩ : BufTy).Contents (Elt F)),
    StableHlo.binary main_arg6 main_arg6 main_v26 (mulf : (⟨S2048x256, .f32⟩ : BufTy).Contents (Elt F) → (⟨S2048x256, .f32⟩ : BufTy).Contents (Elt F) → (⟨S2048x256, .f32⟩ : BufTy).Contents (Elt F)),
    StableHlo.nullary main_cst_3 (constant S_ .f32 0x00000000#32),
    StableHlo.binary main_v26 main_cst_3 main_v27 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_arg6 main_v28 ((transpose S256x2048 [1, 0] · transposes_S2048x256_S256x2048_1_0) : (⟨S2048x256, .f32⟩ : BufTy).Contents (Elt F) → (⟨S256x2048, .f32⟩ : BufTy).Contents (Elt F)),
    StableHlo.binary main_v22 main_v28 main_v29 ((fun l r => Host.dotGeneral dot_S8192x256_S256x2048_S8192x2048_1_0_0_1_n_n none l r) : (⟨S8192x256, .f32⟩ : BufTy).Contents (Elt F) → (⟨S256x2048, .f32⟩ : BufTy).Contents (Elt F) → (⟨S8192x2048, .f32⟩ : BufTy).Contents (Elt F)),
    StableHlo.nullary main_cst_4 (constant S_ .f32 0x40000000#32),
    StableHlo.unary main_cst_4 main_v30 (broadcastInDim S8192x2048 ![] bcast_S_S8192x2048 : (⟨S_, .f32⟩ : BufTy).Contents (Elt F) → (⟨S8192x2048, .f32⟩ : BufTy).Contents (Elt F)),
    StableHlo.binary main_v30 main_v29 main_v31 (mulf : (⟨S8192x2048, .f32⟩ : BufTy).Contents (Elt F) → (⟨S8192x2048, .f32⟩ : BufTy).Contents (Elt F) → (⟨S8192x2048, .f32⟩ : BufTy).Contents (Elt F)),
    StableHlo.unary main_v25 main_v32 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v32 main_v31 main_v33 (subf : (⟨S8192x2048, .f32⟩ : BufTy).Contents (Elt F) → (⟨S8192x2048, .f32⟩ : BufTy).Contents (Elt F) → (⟨S8192x2048, .f32⟩ : BufTy).Contents (Elt F)),
    StableHlo.unary main_v27 main_v34 (broadcastInDim S1x2048 ![1] bcast_S2048_S1x2048_1 : (⟨S2048, .f32⟩ : BufTy).Contents (Elt F) → (⟨S1x2048, .f32⟩ : BufTy).Contents (Elt F)),
    StableHlo.unary main_v34 main_v35 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v33 main_v35 main_v36 (addf : (⟨S8192x2048, .f32⟩ : BufTy).Contents (Elt F) → (⟨S8192x2048, .f32⟩ : BufTy).Contents (Elt F) → (⟨S8192x2048, .f32⟩ : BufTy).Contents (Elt F)),
    StableHlo.unary main_v36 main_v37 (Host.negf : (⟨S8192x2048, .f32⟩ : BufTy).Contents (Elt F) → (⟨S8192x2048, .f32⟩ : BufTy).Contents (Elt F)),
    StableHlo.nullary main_cst_5 (constant S_ .f32 0x2EDBE6FF#32),
    StableHlo.unary main_cst_5 main_v38 (broadcastInDim S8192x2048 ![] bcast_S_S8192x2048 : (⟨S_, .f32⟩ : BufTy).Contents (Elt F) → (⟨S8192x2048, .f32⟩ : BufTy).Contents (Elt F)),
    StableHlo.binary main_arg1 main_v38 main_v39 (addf : (⟨S8192x2048, .f32⟩ : BufTy).Contents (Elt F) → (⟨S8192x2048, .f32⟩ : BufTy).Contents (Elt F) → (⟨S8192x2048, .f32⟩ : BufTy).Contents (Elt F)),
    StableHlo.unary main_v39 main_v40 (Host.log : (⟨S8192x2048, .f32⟩ : BufTy).Contents (Elt F) → (⟨S8192x2048, .f32⟩ : BufTy).Contents (Elt F)),
    StableHlo.unary main_v40 main_v41 (Host.negf : (⟨S8192x2048, .f32⟩ : BufTy).Contents (Elt F) → (⟨S8192x2048, .f32⟩ : BufTy).Contents (Elt F)),
    StableHlo.nullary main_cst_6 (constant S_ .f32 0x2EDBE6FF#32),
    StableHlo.unary main_cst_6 main_v42 (broadcastInDim S8192x2048 ![] bcast_S_S8192x2048 : (⟨S_, .f32⟩ : BufTy).Contents (Elt F) → (⟨S8192x2048, .f32⟩ : BufTy).Contents (Elt F)),
    StableHlo.binary main_v41 main_v42 main_v43 (addf : (⟨S8192x2048, .f32⟩ : BufTy).Contents (Elt F) → (⟨S8192x2048, .f32⟩ : BufTy).Contents (Elt F) → (⟨S8192x2048, .f32⟩ : BufTy).Contents (Elt F)),
    StableHlo.unary main_v43 main_v44 (Host.log : (⟨S8192x2048, .f32⟩ : BufTy).Contents (Elt F) → (⟨S8192x2048, .f32⟩ : BufTy).Contents (Elt F)),
    StableHlo.unary main_v44 main_v45 (Host.negf : (⟨S8192x2048, .f32⟩ : BufTy).Contents (Elt F) → (⟨S8192x2048, .f32⟩ : BufTy).Contents (Elt F)),
    StableHlo.binary main_v37 main_v45 main_v46 (addf : (⟨S8192x2048, .f32⟩ : BufTy).Contents (Elt F) → (⟨S8192x2048, .f32⟩ : BufTy).Contents (Elt F) → (⟨S8192x2048, .f32⟩ : BufTy).Contents (Elt F)),
    StableHlo.nullary main_cst_7 (constant S_ .f32 0x3F800000#32),
    StableHlo.unary main_cst_7 main_v47 (broadcastInDim S8192x2048 ![] bcast_S_S8192x2048 : (⟨S_, .f32⟩ : BufTy).Contents (Elt F) → (⟨S8192x2048, .f32⟩ : BufTy).Contents (Elt F)),
    StableHlo.binary main_v46 main_v47 main_v48 (Host.divf : (⟨S8192x2048, .f32⟩ : BufTy).Contents (Elt F) → (⟨S8192x2048, .f32⟩ : BufTy).Contents (Elt F) → (⟨S8192x2048, .f32⟩ : BufTy).Contents (Elt F)),
    StableHlo.nullary main_cst_8 (constant S_ .f32 0xFF800000#32),
    StableHlo.binary main_v48 main_cst_8 main_v49 ((fun x v => Host.reduce FloatOps.maximumf x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.nullary main_cst_9 (constant S_ .f32 0xFF800000#32),
    StableHlo.unary main_cst_9 main_v50 (broadcastInDim S8192 ![] bcast_S_S8192 : (⟨S_, .f32⟩ : BufTy).Contents (Elt F) → (⟨S8192, .f32⟩ : BufTy).Contents (Elt F)),
    StableHlo.binary main_v50 main_v49 main_v51 (maximumf : (⟨S8192, .f32⟩ : BufTy).Contents (Elt F) → (⟨S8192, .f32⟩ : BufTy).Contents (Elt F) → (⟨S8192, .f32⟩ : BufTy).Contents (Elt F)),
    StableHlo.unary main_v51 main_v52 (broadcastInDim S8192x1 ![0] bcast_S8192_S8192x1_0 : (⟨S8192, .f32⟩ : BufTy).Contents (Elt F) → (⟨S8192x1, .f32⟩ : BufTy).Contents (Elt F)),
    StableHlo.unary main_v52 main_v53 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v48 main_v53 main_v54 (subf : (⟨S8192x2048, .f32⟩ : BufTy).Contents (Elt F) → (⟨S8192x2048, .f32⟩ : BufTy).Contents (Elt F) → (⟨S8192x2048, .f32⟩ : BufTy).Contents (Elt F)),
    StableHlo.unary main_v54 main_v55 (Host.exp : (⟨S8192x2048, .f32⟩ : BufTy).Contents (Elt F) → (⟨S8192x2048, .f32⟩ : BufTy).Contents (Elt F)),
    StableHlo.nullary main_cst_10 (constant S_ .f32 0x00000000#32),
    StableHlo.binary main_v55 main_cst_10 main_v56 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.unary main_v56 main_v57 (broadcastInDim S8192x1 ![0] bcast_S8192_S8192x1_0 : (⟨S8192, .f32⟩ : BufTy).Contents (Elt F) → (⟨S8192x1, .f32⟩ : BufTy).Contents (Elt F)),
    StableHlo.unary main_v57 main_v58 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v55 main_v58 main_v59 (Host.divf : (⟨S8192x2048, .f32⟩ : BufTy).Contents (Elt F) → (⟨S8192x2048, .f32⟩ : BufTy).Contents (Elt F) → (⟨S8192x2048, .f32⟩ : BufTy).Contents (Elt F)),
    StableHlo.binary main_v59 main_arg6 main_v60 ((fun l r => Host.dotGeneral dot_S8192x2048_S2048x256_S8192x256_1_0_0_1_n_n none l r) : (⟨S8192x2048, .f32⟩ : BufTy).Contents (Elt F) → (⟨S2048x256, .f32⟩ : BufTy).Contents (Elt F) → (⟨S8192x256, .f32⟩ : BufTy).Contents (Elt F)),
    StableHlo.nullary main_cst_11 (constant S_ .f32 0xFF800000#32),
    StableHlo.binary main_v37 main_cst_11 main_v61 ((fun x v => Host.reduce FloatOps.maximumf x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.nullary main_cst_12 (constant S_ .f32 0xFF800000#32),
    StableHlo.unary main_cst_12 main_v62 (broadcastInDim S8192 ![] bcast_S_S8192 : (⟨S_, .f32⟩ : BufTy).Contents (Elt F) → (⟨S8192, .f32⟩ : BufTy).Contents (Elt F)),
    StableHlo.binary main_v62 main_v61 main_v63 (maximumf : (⟨S8192, .f32⟩ : BufTy).Contents (Elt F) → (⟨S8192, .f32⟩ : BufTy).Contents (Elt F) → (⟨S8192, .f32⟩ : BufTy).Contents (Elt F)),
    StableHlo.unary main_v63 main_v64 (broadcastInDim S8192x1 ![0] bcast_S8192_S8192x1_0 : (⟨S8192, .f32⟩ : BufTy).Contents (Elt F) → (⟨S8192x1, .f32⟩ : BufTy).Contents (Elt F)),
    StableHlo.unary main_v64 main_v65 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v37 main_v65 main_v66 (subf : (⟨S8192x2048, .f32⟩ : BufTy).Contents (Elt F) → (⟨S8192x2048, .f32⟩ : BufTy).Contents (Elt F) → (⟨S8192x2048, .f32⟩ : BufTy).Contents (Elt F)),
    StableHlo.unary main_v66 main_v67 (Host.exp : (⟨S8192x2048, .f32⟩ : BufTy).Contents (Elt F) → (⟨S8192x2048, .f32⟩ : BufTy).Contents (Elt F)),
    StableHlo.nullary main_cst_13 (constant S_ .f32 0x00000000#32),
    StableHlo.binary main_v67 main_cst_13 main_v68 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.unary main_v68 main_v69 (broadcastInDim S8192x1 ![0] bcast_S8192_S8192x1_0 : (⟨S8192, .f32⟩ : BufTy).Contents (Elt F) → (⟨S8192x1, .f32⟩ : BufTy).Contents (Elt F)),
    StableHlo.unary main_v69 main_v70 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v67 main_v70 main_v71 (Host.divf : (⟨S8192x2048, .f32⟩ : BufTy).Contents (Elt F) → (⟨S8192x2048, .f32⟩ : BufTy).Contents (Elt F) → (⟨S8192x2048, .f32⟩ : BufTy).Contents (Elt F)) ]

set_option maxRecDepth 8192 in
set_option maxHeartbeats 4000000 in
/-- The host function is that straight line: the two called bodies unfolded at their calls, both sides are one
    chain of steps once sequencing is reassociated. -/
theorem main_eq (c : Dev nD) : main (F := F) c = seq ops := by
  simp only [main, main_part0, main_part1, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., binary_bufs_sub .., unary_bufs_sub .., binary_bufs_sub .., nullary_bufs_sub ..,
    binary_bufs_sub .., unary_bufs_sub .., binary_bufs_sub .., nullary_bufs_sub .., unary_bufs_sub .., binary_bufs_sub ..,
    unary_bufs_sub .., binary_bufs_sub .., unary_bufs_sub .., unary_bufs_sub .., binary_bufs_sub .., unary_bufs_sub ..,
    nullary_bufs_sub .., unary_bufs_sub .., binary_bufs_sub .., unary_bufs_sub .., unary_bufs_sub .., nullary_bufs_sub ..,
    unary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub ..⟩

/-- From any memory with zero counters every weakly fair execution of the host function terminates, and every
    final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

open Cert.ReferenceIdeal.RefFns

attribute [local irreducible] Host.reduce Host.reduceAdd in
set_option maxRecDepth 16384 in
set_option maxHeartbeats 4000000 in
/-- The first result buffer after the line holds the softmax of the negative squared distances: the fold unrolled,
    every operation's result read at its own buffer and passed over at the others, what is left is the composition
    of the stage functions by unfolding. The reductions are kept folded meanwhile: the equation never looks inside
    them. -/
theorem probs_eq (V : Valuation τ sig (Elt F)) :
    after ops V (main_v71 : DevRef τ sig)
      = probsOf (linOf (V (main_arg0 : DevRef τ sig)) (V (main_arg2 : DevRef τ sig)) (V (main_arg3 : DevRef τ sig)))
          (V (main_arg4 : DevRef τ sig)) (V (main_arg5 : DevRef τ sig)) (V (main_arg6 : DevRef τ sig)) := by
  after_results_simp
  rfl

attribute [local irreducible] Host.reduce Host.reduceAdd in
set_option maxRecDepth 16384 in
set_option maxHeartbeats 4000000 in
/-- The second result buffer after the line holds the softmax of the perturbed distances times the code book, the
    same way. -/
theorem mixed_eq (V : Valuation τ sig (Elt F)) :
    after ops V (main_v60 : DevRef τ sig)
      = mixedOf (linOf (V (main_arg0 : DevRef τ sig)) (V (main_arg2 : DevRef τ sig)) (V (main_arg3 : DevRef τ sig)))
          (V (main_arg1 : DevRef τ sig)) (V (main_arg4 : DevRef τ sig)) (V (main_arg5 : DevRef τ sig))
          (V (main_arg6 : DevRef τ sig)) := by
  after_results_simp
  rfl

set_option maxRecDepth 16384 in
/-- No operation of the line writes an argument buffer: each holds after the line what it held before. -/
theorem arg0_eq (V : Valuation τ sig (Elt F)) :
    after ops V (main_arg0 : DevRef τ sig) = V (main_arg0 : DevRef τ sig) := by
  after_results_simp

set_option maxRecDepth 16384 in
theorem arg1_eq (V : Valuation τ sig (Elt F)) :
    after ops V (main_arg1 : DevRef τ sig) = V (main_arg1 : DevRef τ sig) := by
  after_results_simp

set_option maxRecDepth 16384 in
theorem arg2_eq (V : Valuation τ sig (Elt F)) :
    after ops V (main_arg2 : DevRef τ sig) = V (main_arg2 : DevRef τ sig) := by
  after_results_simp

set_option maxRecDepth 16384 in
theorem arg3_eq (V : Valuation τ sig (Elt F)) :
    after ops V (main_arg3 : DevRef τ sig) = V (main_arg3 : DevRef τ sig) := by
  after_results_simp

set_option maxRecDepth 16384 in
theorem arg4_eq (V : Valuation τ sig (Elt F)) :
    after ops V (main_arg4 : DevRef τ sig) = V (main_arg4 : DevRef τ sig) := by
  after_results_simp

set_option maxRecDepth 16384 in
theorem arg5_eq (V : Valuation τ sig (Elt F)) :
    after ops V (main_arg5 : DevRef τ sig) = V (main_arg5 : DevRef τ sig) := by
  after_results_simp

set_option maxRecDepth 16384 in
theorem arg6_eq (V : Valuation τ sig (Elt F)) :
    after ops V (main_arg6 : DevRef τ sig) = V (main_arg6 : DevRef τ sig) := by
  after_results_simp

/-- From any memory with zero counters every weakly fair execution of the host function terminates with the two
    results at the stage-by-stage functions of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71)
          = probsOf (linOf (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))
      ∧ r.2.mem ((c.tc : Thread nD τ).loc main_v60)
          = mixedOf (linOf (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v71).trans (probs_eq _), (h c main_v60).trans (mixed_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_main m ρ)

end Cert.ReferenceIdeal.RefRun

end
-- ==== Proof.lean ====
/-
  The five claims. Both programs compute, for x : [8192, 1024], samples u : [8192, 2048], weights W, b, a scale γ, a shift β
  and a code book E : [2048, 256]:  h = x·W + b;  the column statistics of h over the batch and the normalised rows
  hn = (h − μ)·rsqrt(var + ε)·γ + β;  the negative squared distances l = −(‖hn‖² − 2·hn·Eᵀ + ‖e‖²);  the first result
  softmax(l) row by row;  and the second result softmax((l − log(−log(u + c) + c)) / 1)·E.  The kernel computes h in one
  pipelined region, eight row blocks at a time, the statistics on the host exactly as the reference does, and the rest in a
  second region, 256 rows at a time; the reference computes everything on whole arrays. On the extended reals the two
  agree entry by entry with no assumption on the inputs: every operation after h acts within one row (or is the same
  host operation on the same array), a rounding to bf16 is the identity, a product into a zero accumulator is the host's
  product, a lane reduction is the host's reduction of the same row, 0 − x is −x, and x·1 = x / 1 = x. So the kernel's run
  ends with both results at the reference's functions of the arguments (KBlocks1.run), the reference's run at the same
  functions (RefRun.run), and the frames are the two runs with the results dropped, the word-level frame the generated one.
-/
import proofs.«145537_j65034394796697_1_alg».proof.Defs
import proofs.«145537_j65034394796697_1_alg».proof.Proof.Gen.Kernel
import proofs.«145537_j65034394796697_1_alg».proof.Proof.Gen.Kernel.Skeleton
import proofs.«145537_j65034394796697_1_alg».proof.Proof.Gen.Kernel.Launch
import proofs.«145537_j65034394796697_1_alg».proof.Proof.Gen.Kernel.Points
import proofs.«145537_j65034394796697_1_alg».proof.Proof.Gen.Kernel.Frame
import proofs.«145537_j65034394796697_1_alg».proof.Proof.Gen.KernelIdeal
import proofs.«145537_j65034394796697_1_alg».proof.Proof.Gen.KernelIdeal.Skeleton
import proofs.«145537_j65034394796697_1_alg».proof.Proof.Gen.KernelIdeal.Launch
import proofs.«145537_j65034394796697_1_alg».proof.Proof.Gen.KernelIdeal.Points
import proofs.«145537_j65034394796697_1_alg».proof.Proof.Gen.KernelIdeal.Frame
import proofs.«145537_j65034394796697_1_alg».proof.Proof.Gen.ReferenceIdeal
import proofs.«145537_j65034394796697_1_alg».proof.Proof.Gen.Pre_finite_inputs
import proofs.«145537_j65034394796697_1_alg».proof.Proof.KBlocks1
import proofs.«145537_j65034394796697_1_alg».proof.Proof.RefRun
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The idealization rewrote no operation. -/
theorem preserves : Cert.preserves_Kernel_KernelIdeal := trivial

/-- From memories agreeing on the seven arguments both runs end with the same two result arrays: each side's results are
    the same functions of its arguments. -/
theorem algebraic : Cert.algebraic_KernelIdeal_ReferenceIdeal := by
  intro m ρ m' ρ' _ hagree
  refine ⟨_, _, Cert.KernelIdeal.KBlocks1.run m ρ, ?_⟩
  refine (θ_run Cert.ReferenceIdeal.defs _ _).mono (fun _ h c => ?_) (Cert.ReferenceIdeal.RefRun.run (F := Ideal) m' ρ')
  obtain ⟨a0, a1, a2, a3, a4, a5, a6⟩ := hagree c
  refine ⟨(h c).1.trans ?_, (h c).2.1.trans ?_, (h c).2.2⟩
  · rw [a0, a2, a3, a4, a5, a6]
  · rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
